-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S2048x1024 : Shape := ⟨2, ![2048, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x4096x1024 .f32) (main_arg1 : FVec F S2048x1024 .f32) (main_arg2 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4x4096x1024 : Shape := ⟨3, ![4, 4096, 1024]⟩
abbrev S2048x1024 : Shape := ⟨2, ![2048, 1024]⟩
abbrev S1024 : Shape := ⟨1, ![1024]⟩
abbrev S16384x1024 : Shape := ⟨2, ![16384, 1024]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1x1024 : Shape := ⟨2, ![1, 1024]⟩
abbrev S16384x2048 : Shape := ⟨2, ![16384, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S4x4096x2048 : Shape := ⟨3, ![4, 4096, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S2048x1024, .f32⟩
  | .hbm, ⟨2, _⟩ => ⟨S1024, .f32⟩
  | .hbm, ⟨3, _⟩ => ⟨S16384x1024, .f32⟩
  | .hbm, ⟨4, _⟩ => ⟨S2048x1024, .bf16⟩
  | .hbm, ⟨5, _⟩ => ⟨S1x1024, .f32⟩
  | .hbm, ⟨6, _⟩ => ⟨S16384x2048, .f32⟩
  | .hbm, ⟨7, _⟩ => ⟨S4x4096x2048, .f32⟩
  | .local _ .vmem, ⟨0, _⟩ => ⟨S2048x1024, .f32⟩
  | .local _ .vmem, ⟨1, _⟩ => ⟨S2048x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S2048x1024, .bf16⟩
  | .local _ .vmem, ⟨6, _⟩ => ⟨S512x2048, .f32⟩
  | .local _ .vmem, ⟨7, _⟩ => ⟨S512x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem3_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x4096x1024_S16384x1024 : S4x4096x1024.ShapeCasts S16384x1024
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  reduces_S2048x1_S1 : S2048x1.Reduces [0] S1
  shapeCasts_S1_S1x1 : S1.ShapeCasts S1x1
  broadcasts_S1x1_S2048x1024 : S1x1.Broadcasts S2048x1024
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S512x1024_S512 : S512x1024.Reduces [1] S512
  shapeCasts_S512_S512x1 : S512.ShapeCasts S512x1
  broadcasts_S512x1_S512x1024 : S512x1.Broadcasts S512x1024
  broadcasts_S1x1024_S512x1024 : S1x1024.Broadcasts S512x1024
  shapeCasts_S2048x1024_S2048x1024 : S2048x1024.ShapeCasts S2048x1024
  inb_S512x2048_S512x2048_0_0 : ∀ a, (![0, 0] : Fin 2 → Nat) a + S512x2048.size a ≤ S512x2048.size a
  h_S512x2048 : 0 < S512x2048.numel
  shapeCasts_S16384x2048_S4x4096x2048 : S16384x2048.ShapeCasts S4x4096x2048
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S2048x1024.size a
  hwx0_0 : ∀ i : grid0.Coords, EltTy.bits .f32 = 32 ∨ (Rect.block (s := S2048x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S2048x1024.size a
  hwx1_2 : ∀ i : grid1.Coords, EltTy.bits .bf16 = 32 ∨ (Rect.block (s := S2048x1024) S2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S16384x2048.size a
  hwx1_3 : ∀ i : grid1.Coords, EltTy.bits .f32 = 32 ∨ (Rect.block (s := S16384x2048) S512x2048.size (cc1_transform_3 i) (hinb1_3 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg1) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S2048x1024 : Shape := ⟨2, ![2048, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2048x1024, .f32⟩
  | .hbm, ⟨2, _⟩ => ⟨S1024, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S2048x1024, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S4x4096x2048, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_c_5 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_cst_8 : Ref sig .tc := ⟨.hbm, 50, rfl⟩
abbrev main_call3_v0 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_c_11 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]

class Facts₀ : Prop where
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x1024 : S_.BroadcastsInDim S4x4096x1024 (![] : Fin 0 → Fin S4x4096x1024.rank)
  reducesTo_S2048x1024_S_d0_1 : S2048x1024.ReducesTo [0, 1] S_
  bcast_S_S2048x1024 : S_.BroadcastsInDim S2048x1024 (![] : Fin 0 → Fin S2048x1024.rank)
  dot_S4x4096x1024_S2048x1024_S4x4096x2048_2_1_01_0_n_n_wf : DotDims.WF S4x4096x1024 S2048x1024 S4x4096x2048 [2] [1] [0, 1] [0] [] []

variable [Facts₀]

def dot_S4x4096x1024_S2048x1024_S4x4096x2048_2_1_01_0_n_n : DotDims S4x4096x1024 S2048x1024 S4x4096x2048 where
  lhsContracting := [2]
  rhsContracting := [1]
  lhsNonContracting := [0, 1]
  rhsNonContracting := [0]
  lhsBatch := []
  rhsBatch := []
  wf := dot_S4x4096x1024_S2048x1024_S4x4096x2048_2_1_01_0_n_n_wf

class Facts : Prop extends Facts₀ where

variable [Facts]
-- ==== Proof.KernelRun.lean ====
/-
  The idealized kernel's run with its result named. Its main function is five segments: a reshape of x to 16384
  rows, the first kernel (the weight, one grid point), a reshape of the gain to one row, the second kernel (32 blocks
  of 512 rows), and a reshape of the 16384 x 2048 product back to [4, 4096, 2048]. Every weakly fair execution
  terminates without a fault, the arguments end as launched, and the result buffer ends at the contents the last
  segment boundary gives it: the fold of the segments over the launch memory, read at that buffer.
-/
import proofs.«131781_j68985764708845_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the five segments, the last thread state read against the final state at the result
    buffer and at each argument. -/
theorem run_named : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Named

end
-- ==== Proof.Spec.lean ====
/-
  The mathematics both programs compute, written once over the extended reals.

  A linear layer on fake-quantised values. The weight matrix W (2048 x 1024) has ONE scale,
  sW = 1 / max(eps, mean |W|) with the mean over all its entries, and each entry becomes
  clamp(round(W * sW), -1, 1) / sW. Each activation row x (1024 entries) is first normalised,
  n_k = x_k * rsqrt(mean_k x_k^2 + eps') * g_k, then given its OWN scale sX = 127 / max(eps, max_k |n_k|)
  and quantised to clamp(round(n_k * sX), -128, 127) / sX. The result entry (row, o) is the dot
  product of the quantised row with the quantised weight row o. Rounding is to nearest, ties to
  even. Every float literal is kept as the word both programs spell; only where one side spells an
  integer bound instead is a word evaluated.
-/
import Idealize.ShloMosaic.PureOps.Ideal
import Idealize.ShloMosaic.PureOps.Ideal.Laws
import Idealize.ShloMosaic.Lib.ValueIdx

noncomputable section

namespace Cert.QLinear

open Idealize.ShloMosaic Idealize.ShloMosaic.ValueIdx

/-- Scale by `s`, round to the nearest integer (ties to even), clamp to `[lo, hi]`, and divide `s` back out. -/
def fakeQuant (lo hi s v : EReal) : EReal :=
  Ideal.div (min hi (max lo (Ideal.liftRound Ideal.roundHalfEven (v * s)))) s

/-- The absolute value on the extended reals. -/
def eabs (v : EReal) : EReal := max v (-v)

/-- The weight's one scale: `1 / max(eps, (sum of all |w|) / 2^21)`. -/
def wScale (w : Fin 2048 → Fin 1024 → EReal) : EReal :=
  Ideal.div (Ideal.ofBits .f32 0x3F800000#32)
    (max (Ideal.ofBits .f32 0x3727C5AC#32)
      (Ideal.div (∑ o : Fin 2048, ∑ k : Fin 1024, eabs (w o k)) (Ideal.ofBits .f32 0x4A000000#32)))

/-- The quantised weight: ternary values over the one scale. -/
def wQuant (w : Fin 2048 → Fin 1024 → EReal) (o : Fin 2048) (k : Fin 1024) : EReal :=
  fakeQuant (Ideal.ofBits .f32 0xBF800000#32) (Ideal.ofBits .f32 0x3F800000#32) (wScale w) (w o k)

/-- A row's inverse root mean square: `rsqrt((sum of squares) / 1024 + eps')`. -/
def rowInvRms (x : Fin 1024 → EReal) : EReal :=
  Ideal.rsqrt (Ideal.div (∑ k : Fin 1024, x k * x k) (Ideal.ofBits .f32 0x44800000#32) + Ideal.ofBits .f32 0x322BCC77#32)

/-- The normalised row, times the gain `g`. -/
def rowNorm (x g : Fin 1024 → EReal) (k : Fin 1024) : EReal := x k * rowInvRms x * g k

/-- The row's own scale: `127 / max(eps, max_k |n_k|)`, the maximum taken from `-inf`. -/
def rowScale (x g : Fin 1024 → EReal) : EReal :=
  Ideal.div (Ideal.ofBits .f32 0x42FE0000#32)
    (max (Ideal.ofBits .f32 0x3727C5AC#32)
      ((Finset.univ : Finset (Fin 1024)).fold max (Ideal.ofBits .f32 0xFF800000#32) (fun k => eabs (rowNorm x g k))))

/-- The quantised row: 8-bit values over the row's scale. -/
def rowQuant (x g : Fin 1024 → EReal) (k : Fin 1024) : EReal :=
  fakeQuant (Ideal.ofBits .f32 0xC3000000#32) (Ideal.ofBits .f32 0x42FE0000#32) (rowScale x g) (rowNorm x g k)

/-- The layer: entry `(b, s, o)` is the dot product of quantised row `(b, s)` with quantised weight row `o`. -/
def out (x : (⟨3, ![4, 4096, 1024]⟩ : Shape).Idx → EReal) (w : (⟨2, ![2048, 1024]⟩ : Shape).Idx → EReal)
    (g : (⟨1, ![1024]⟩ : Shape).Idx → EReal) : (⟨3, ![4, 4096, 2048]⟩ : Shape).Idx → EReal :=
  fun i => ∑ k : Fin 1024,
    rowQuant (fun k => x (ix3 (i 0) (i 1) k)) (fun k => g (ix1 k)) k * wQuant (fun o k => w (ix2 o k)) (i 2) k

/-! ## The one law that needs finiteness -/

/-- Adding a finite `a` to `q - a` gives `q` back, for every extended real `q`: translation by a real number is
    a bijection of the extended reals (it fixes both infinities). -/
theorem add_sub_cancel_of_finite (a q : EReal) (h₁ : a ≠ ⊤) (h₂ : a ≠ ⊥) : a + (q - a) = q := by
  lift a to ℝ using ⟨h₁, h₂⟩
  induction q using EReal.rec with
  | bot => simp
  | top => simp
  | coe r => norm_cast; ring

end Cert.QLinear

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibRowCol.lean ====
/-
  General layout and reduction reads, at `ix`-indices: an `[a, b, 1]` array cast to `[a, b]`; a `[1, a]` array cast to
  `[1, 1, a]`; the sum over the FIRST axis of an `[a, b]` array at the ideal values; and the two-step total of an
  `[a, b]` array (last axis, then first axis, each result given back its unit axis) as the double sum of its entries.
-/
import Idealize.ShloMosaic.Lib.Pipeline.Value
import Idealize.ShloMosaic.Lib.ValueIdx
import Idealize.ShloMosaic.Lib.ValueLayout
import Idealize.ShloMosaic.PureOps.Ideal.Laws
import proofs.«131781_j68985764708845_2_alg».proof.Proof.LibColumn
import proofs.«131781_j68985764708845_2_alg».proof.Proof.LibKeepdims

noncomputable section

namespace Cert.LibRowCol

open Idealize.ShloMosaic Idealize.ShloMosaic.ValueIdx

variable {α : Type}

/-- An `[a, b, 1]` array cast to `[a, b]` reads, at `(p, q)`, the operand at `(p, q, 0)`. -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    omega)

/-- A `[1, a]` array cast to `[1, 1, a]` reads, at `(0, 0, k)`, the operand at `(0, k)`. -/
theorem shapeCast_1a_11a_apply {a : ℕ} (x : (⟨2, ![1, a]⟩ : Shape).Idx → α)
    (h : (⟨2, ![1, a]⟩ : Shape).ShapeCasts ⟨3, ![1, 1, a]⟩) (u v : Fin 1) (k : Fin a) :
    shapeCast ⟨3, ![1, 1, a]⟩ x h (ix3 u v k) = x (ix2 (0 : Fin 1) k) :=
  shapeCast_apply x h _ _ (by
    have hu : u.val = 0 := by omega
    have hv : v.val = 0 := by omega
    rw [Shape.rowMajor_val_three, Shape.rowMajor_val_two]
    show 0 * a + k.val = (u.val * 1 + v.val) * a + k.val
    rw [hu, hv])

theorem lift_first2 {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext ax; apply Fin.ext
  fin_cases ax <;> rfl

/-- Four `[1, 1]` pieces laid side by side into a `[1, 4]` array: entry `(0, k)` is the `k`-th piece's one entry. -/
theorem concat_four_units_apply (p0 p1 p2 p3 : (⟨2, ![1, 1]⟩ : Shape).Idx → α)
    (h : Shape.Concatenates
      ([(⟨⟨2, ![1, 1]⟩, p0⟩ : (s : Shape) × (s.Idx → α)), ⟨⟨2, ![1, 1]⟩, p1⟩, ⟨⟨2, ![1, 1]⟩, p2⟩, ⟨⟨2, ![1, 1]⟩, p3⟩].map (·.1))
      (⟨2, ![1, 4]⟩ : Shape) (1 : Fin 2))
    (k : Fin 4) :
    concatenate (⟨2, ![1, 4]⟩ : Shape) (1 : Fin 2)
        [(⟨⟨2, ![1, 1]⟩, p0⟩ : (s : Shape) × (s.Idx → α)), ⟨⟨2, ![1, 1]⟩, p1⟩, ⟨⟨2, ![1, 1]⟩, p2⟩, ⟨⟨2, ![1, 1]⟩, p3⟩] h
        (ix2 (0 : Fin 1) k)
      = (match k with | ⟨0, _⟩ => p0 | ⟨1, _⟩ => p1 | ⟨2, _⟩ => p2 | ⟨3, _⟩ => p3) (ix2 (0 : Fin 1) (0 : Fin 1)) := by
  have hi : ∀ (j : (⟨2, ![1, 4]⟩ : Shape).Idx) (b : Fin 2), b.cast (rfl : (2 : ℕ) = 2) ≠ (1 : Fin 2) →
      ((ix2 (0 : Fin 1) (0 : Fin 1) : (⟨2, ![1, 1]⟩ : Shape).Idx) b).val = (j (b.cast rfl)).val := by
    intro j b hb
    match b, hb with
    | ⟨0, _⟩, _ => have h0 : (j 0).val < 1 := (j 0).isLt; show 0 = (j 0).val; omega
    | ⟨1, _⟩, hb => exact absurd rfl hb
  match k with
  | ⟨0, _⟩ =>
    refine concatenate_apply_piece (t := ⟨2, ![1, 4]⟩) (1 : Fin 2) _ h _ 0 ?_ ⟨2, ![1, 1]⟩ p0 rfl rfl 0 rfl _ (hi _) rfl
    show 0 < 4; omega
  | ⟨1, _⟩ =>
    refine concatenate_apply_piece (t := ⟨2, ![1, 4]⟩) (1 : Fin 2) _ h _ 1 ?_ ⟨2, ![1, 1]⟩ p1 rfl rfl 1 rfl _ (hi _) rfl
    show 1 < 4; omega
  | ⟨2, _⟩ =>
    refine concatenate_apply_piece (t := ⟨2, ![1, 4]⟩) (1 : Fin 2) _ h _ 2 ?_ ⟨2, ![1, 1]⟩ p2 rfl rfl 2 rfl _ (hi _) rfl
    show 2 < 4; omega
  | ⟨3, _⟩ =>
    refine concatenate_apply_piece (t := ⟨2, ![1, 4]⟩) (1 : Fin 2) _ h _ 3 ?_ ⟨2, ![1, 1]⟩ p3 rfl rfl 3 rfl _ (hi _) rfl
    show 3 < 4; omega

variable {φ : FTy}

/-- The sum over the first axis of an `[a, b]` array, at `q`: the sum over `p` of the entries `(p, q)`. -/
theorem sum_first2_apply {a b : ℕ} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (q : Fin b) :
    multiReduction .add [0] ⟨1, ![b]⟩ src acc h hφ hacc (ix1 q) = ∑ p : Fin a, src (ix2 p q) :=
  (Ideal.multiReduction_add_single src acc h hφ hacc (ix1 q)).trans
    (Finset.sum_congr rfl fun p _ => congrArg src (lift_first2 h q p))

/-- The total of an `[a, b]` array taken in two steps — the sum along the last axis, kept as a column `[a, 1]`; then
    the sum of that column, kept as `[1, 1]` — is the double sum of the entries. -/
theorem total_two_steps {a b : ℕ} (w : FVec Ideal ⟨2, ![a, b]⟩ φ) (acc : BitVec φ.bits)
    (h1 : (⟨2, ![a, b]⟩ : Shape).Reduces [1] (⟨1, ![a]⟩ : Shape)) (c1 : (⟨1, ![a]⟩ : Shape).ShapeCasts ⟨2, ![a, 1]⟩)
    (h0 : (⟨2, ![a, 1]⟩ : Shape).Reduces [0] (⟨1, ![1]⟩ : Shape)) (c0 : (⟨1, ![1]⟩ : Shape).ShapeCasts ⟨2, ![1, 1]⟩)
    (hφ : FKind.Formats φ) (hacc : acc = FKind.add.neutral φ hφ) (u v : Fin 1) :
    shapeCast ⟨2, ![1, 1]⟩
        (multiReduction .add [0] ⟨1, ![1]⟩
          (shapeCast ⟨2, ![a, 1]⟩ (multiReduction .add [1] ⟨1, ![a]⟩ w acc h1 hφ hacc) c1) acc h0 hφ hacc) c0 (ix2 u v)
      = ∑ p : Fin a, ∑ q : Fin b, w (ix2 p q) := by
  rw [Cert.LibColumn.shapeCast_a_a1_apply, sum_first2_apply]
  refine Finset.sum_congr rfl fun p _ => ?_
  rw [Cert.LibColumn.shapeCast_a_a1_apply, Cert.LibKeepdims.sum_last2_apply]

end Cert.LibRowCol

end
-- ==== Proof.LibSplat.lean ====
/-
  A one-entry array spread over a whole matrix, read at an index: a `[1, 1]` array broadcast to `[a, b]` reads its
  one entry everywhere. (The row form `[1, b] → [a, b]` is in the library and the column form `[a, 1] → [a, b]` beside
  it; this is the remaining corner, which a per-tensor statistic kept with both its axes meets.)
-/
import Idealize.ShloMosaic.Lib.Pipeline.Value
import Idealize.ShloMosaic.Lib.ValueIdx

namespace Cert.LibSplat

open Idealize.ShloMosaic Idealize.ShloMosaic.ValueIdx

variable {α : Type}

/-- A `[1, 1]` array broadcast to `[a, b]` reads, at every `(p, c)`, the operand's one entry. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibSplat
-- ==== Proof.Kernel0.lean ====
/-
  The first kernel's one stored value, read at an index. Its body sums |W| along each row, keeps the sums as a
  column, sums the column, and keeps that as a `[1, 1]` array: the double sum of all |W| entries. Divided by
  2^21, clipped below at eps and inverted, that one entry is the weight's scale; spread over the whole matrix it
  scales every entry before rounding and clamping, and divides it back out after. The change of float format at the
  end is the identity on the extended reals.
-/
import proofs.«131781_j68985764708845_2_alg».proof.Proof.Gen.KernelIdeal.Skeleton
import proofs.«131781_j68985764708845_2_alg».proof.Proof.Spec
import proofs.«131781_j68985764708845_2_alg».proof.Proof.LibRowCol
import proofs.«131781_j68985764708845_2_alg».proof.Proof.LibSplat

noncomputable section

namespace Cert.QLinear

open Idealize.ShloMosaic Idealize.ShloMosaic.ValueIdx Cert.KernelIdeal Cert.KernelIdeal.Facts₀

/-- The body's `[1, 1]` array that holds the weight's scale. -/
def scale11 (v0 : Vec Ideal S2048x1024 .f32) : FVec Ideal S1x1 .f32 :=
  divf (broadcast S1x1 (Scalar.ofBits .f32 0x3F800000#32))
    (maximumf (broadcast S1x1 (Scalar.ofBits .f32 0x3727C5AC#32))
      (divf
        (shapeCast S1x1
          (multiReduction .add [0] S1
            (shapeCast S2048x1 (multiReduction .add [1] S2048 (absf v0) 0x00000000#32 reduces_S2048x1024_S2048 (.inl rfl) rfl)
              shapeCasts_S2048_S2048x1)
            0x00000000#32 reduces_S2048x1_S1 (.inl rfl) rfl)
          shapeCasts_S1_S1x1)
        (broadcast S1x1 (Scalar.ofBits .f32 0x4A000000#32))))

/-- Its one entry is the scale of the specification: the two sums, one after the other, are the double sum. -/
theorem scale11_apply (v0 : Vec Ideal S2048x1024 .f32) (u v : Fin 1) :
    scale11 v0 (ix2 u v) = wScale (fun o k => v0 (ix2 o k)) :=
  congrArg
    (fun t => Ideal.div (Ideal.ofBits .f32 0x3F800000#32)
      (max (Ideal.ofBits .f32 0x3727C5AC#32) (Ideal.div t (Ideal.ofBits .f32 0x4A000000#32))))
    (Cert.LibRowCol.total_two_steps (absf v0) 0x00000000#32 reduces_S2048x1024_S2048 shapeCasts_S2048_S2048x1
      reduces_S2048x1_S1 shapeCasts_S1_S1x1 (.inl rfl) rfl u v)

/-- The stored entry `(o, k)` is the quantised weight entry. -/
theorem weight_payload (v0 : Vec Ideal S2048x1024 .f32) (o : Fin 2048) (k : Fin 1024) :
    Gen.k0_pay1 (F := Ideal) v0 (ix2 o k) = wQuant (fun o k => v0 (ix2 o k)) o k := by
  have hb : broadcastTo S2048x1024 (scale11 v0) broadcasts_S1x1_S2048x1024 (ix2 o k) = wScale (fun o k => v0 (ix2 o k)) :=
    (Cert.LibSplat.broadcastTo_11_ab_apply _ _ o k).trans (scale11_apply v0 0 0)
  exact congrArg
    (fun s => fakeQuant (Ideal.ofBits .f32 0xBF800000#32) (Ideal.ofBits .f32 0x3F800000#32) s (v0 (ix2 o k))) hb

end Cert.QLinear

end
-- ==== Proof.Kernel1.lean ====
/-
  The second kernel's one stored value, read at an index. On a block of 512 rows the body computes, row by row: the
  sum of squares (kept as a column), its mean plus eps' under an inverse square root, the row times that times the
  gain row; then the row's largest absolute value from -inf (kept as a column), 127 over that clipped below at eps,
  and the row scaled, rounded, clamped to [-128, 127] and unscaled. The changes of float format are the identity on
  the extended reals, and the matrix unit's product into a zero accumulator is, at (row, o), the sum over the 1024
  shared coordinates of the quantised row times weight row o.
-/
import proofs.«131781_j68985764708845_2_alg».proof.Proof.Gen.KernelIdeal.Skeleton
import proofs.«131781_j68985764708845_2_alg».proof.Proof.Spec
import proofs.«131781_j68985764708845_2_alg».proof.Proof.LibColumn
import proofs.«131781_j68985764708845_2_alg».proof.Proof.LibKeepdims
import Idealize.ShloMosaic.Lib.ValueLayout
import Idealize.ShloMosaic.PureOps.Ideal.Laws

noncomputable section

namespace Cert.QLinear

open Idealize.ShloMosaic Idealize.ShloMosaic.ValueIdx Cert.KernelIdeal Cert.KernelIdeal.Facts₀

/-! ## The normalised block -/

/-- Each row's sum of squares, as a column. -/
def sumSqCol (x : FVec Ideal S512x1024 .f32) : FVec Ideal S512x1 .f32 :=
  shapeCast S512x1 (multiReduction .add [1] S512 (mulf x x) 0x00000000#32 reduces_S512x1024_S512 (.inl rfl) rfl)
    shapeCasts_S512_S512x1

theorem sumSqCol_apply (x : FVec Ideal S512x1024 .f32) (r : Fin 512) (u : Fin 1) :
    sumSqCol x (ix2 r u) = ∑ k : Fin 1024, x (ix2 r k) * x (ix2 r k) :=
  (Cert.LibColumn.shapeCast_a_a1_apply _ _ r u).trans
    (Cert.LibKeepdims.sum_last2_apply (mulf x x) _ _ (.inl rfl) rfl r)

/-- Each row's inverse root mean square, as a column. -/
def invRmsCol (x : FVec Ideal S512x1024 .f32) : FVec Ideal S512x1 .f32 :=
  rsqrt (addf (divf (sumSqCol x) (broadcast S512x1 (Scalar.ofBits .f32 0x44800000#32)))
    (broadcast S512x1 (Scalar.ofBits .f32 0x322BCC77#32)))

theorem invRmsCol_apply (x : FVec Ideal S512x1024 .f32) (r : Fin 512) (u : Fin 1) :
    invRmsCol x (ix2 r u) = rowInvRms (fun k => x (ix2 r k)) :=
  congrArg (fun t => Ideal.rsqrt (Ideal.div t (Ideal.ofBits .f32 0x44800000#32) + Ideal.ofBits .f32 0x322BCC77#32))
    (sumSqCol_apply x r u)

/-- The block normalised row by row and multiplied by the gain row. -/
def normOf (x : FVec Ideal S512x1024 .f32) (g : FVec Ideal S1x1024 .f32) : FVec Ideal S512x1024 .f32 :=
  mulf (mulf x (broadcastTo S512x1024 (invRmsCol x) broadcasts_S512x1_S512x1024))
    (broadcastTo S512x1024 g broadcasts_S1x1024_S512x1024)

theorem normOf_apply (x : FVec Ideal S512x1024 .f32) (g : FVec Ideal S1x1024 .f32) (r : Fin 512) (k : Fin 1024) :
    normOf x g (ix2 r k) = rowNorm (fun k => x (ix2 r k)) (fun k => g (ix2 (0 : Fin 1) k)) k := by
  have h1 : broadcastTo S512x1024 (invRmsCol x) broadcasts_S512x1_S512x1024 (ix2 r k) = rowInvRms (fun k => x (ix2 r k)) :=
    (Cert.LibColumn.broadcastTo_a1_ab_apply _ _ r k).trans (invRmsCol_apply x r 0)
  have h2 : broadcastTo S512x1024 g broadcasts_S1x1024_S512x1024 (ix2 r k) = g (ix2 (0 : Fin 1) k) :=
    broadcastTo_1b_ab_apply g _ r k
  show x (ix2 r k) * broadcastTo S512x1024 (invRmsCol x) broadcasts_S512x1_S512x1024 (ix2 r k)
      * broadcastTo S512x1024 g broadcasts_S1x1024_S512x1024 (ix2 r k) = _
  rw [h1, h2]
  rfl

/-! ## The quantised block -/

/-- Each row's largest absolute value, from -inf, as a column. -/
def absMaxCol (n : FVec Ideal S512x1024 .f32) : FVec Ideal S512x1 .f32 :=
  shapeCast S512x1 (multiReduction .maximumf [1] S512 (absf n) 0xFF800000#32 reduces_S512x1024_S512 (.inl rfl) rfl)
    shapeCasts_S512_S512x1

theorem absMaxCol_apply (n : FVec Ideal S512x1024 .f32) (r : Fin 512) (u : Fin 1) :
    absMaxCol n (ix2 r u)
      = (Finset.univ : Finset (Fin 1024)).fold max (Ideal.ofBits .f32 0xFF800000#32) (fun k => eabs (n (ix2 r k))) :=
  (Cert.LibColumn.shapeCast_a_a1_apply _ _ r u).trans
    (Cert.LibKeepdims.max_last2_apply (absf n) _ _ (.inl rfl) rfl r)

/-- A column of row maxima turned into a column of row scales. -/
def scaleOfCol (c : FVec Ideal S512x1 .f32) : FVec Ideal S512x1 .f32 :=
  divf (broadcast S512x1 (Scalar.ofBits .f32 0x42FE0000#32))
    (maximumf (broadcast S512x1 (Scalar.ofBits .f32 0x3727C5AC#32)) c)

theorem scaleOfCol_apply (c : FVec Ideal S512x1 .f32) (i : S512x1.Idx) :
    scaleOfCol c i = Ideal.div (Ideal.ofBits .f32 0x42FE0000#32) (max (Ideal.ofBits .f32 0x3727C5AC#32) (c i)) := rfl

/-- A block scaled entry by entry by `s`, rounded, clamped and unscaled. -/
def quantWith (n s : FVec Ideal S512x1024 .f32) : FVec Ideal S512x1024 .f32 :=
  divf
    (minimumf (broadcast S512x1024 (Scalar.ofBits .f32 0x42FE0000#32))
      (maximumf (broadcast S512x1024 (Scalar.ofBits .f32 0xC3000000#32)) (roundeven (mulf n s))))
    s

theorem quantWith_apply (n s : FVec Ideal S512x1024 .f32) (i : S512x1024.Idx) :
    quantWith n s i = fakeQuant (Ideal.ofBits .f32 0xC3000000#32) (Ideal.ofBits .f32 0x42FE0000#32) (s i) (n i) := rfl

/-- The block quantised row by row: each row's scale from its own largest absolute value. -/
def quantOf (n : FVec Ideal S512x1024 .f32) : FVec Ideal S512x1024 .f32 :=
  quantWith n (broadcastTo S512x1024 (scaleOfCol (absMaxCol n)) broadcasts_S512x1_S512x1024)

theorem quantOf_normOf_apply (x : FVec Ideal S512x1024 .f32) (g : FVec Ideal S1x1024 .f32) (r : Fin 512) (k : Fin 1024) :
    quantOf (normOf x g) (ix2 r k) = rowQuant (fun k => x (ix2 r k)) (fun k => g (ix2 (0 : Fin 1) k)) k := by
  have hf : (fun k : Fin 1024 => eabs (normOf x g (ix2 r k)))
      = fun k : Fin 1024 => eabs (rowNorm (fun k => x (ix2 r k)) (fun k => g (ix2 (0 : Fin 1) k)) k) :=
    funext fun k => congrArg eabs (normOf_apply x g r k)
  have hs : broadcastTo S512x1024 (scaleOfCol (absMaxCol (normOf x g))) broadcasts_S512x1_S512x1024 (ix2 r k)
      = rowScale (fun k => x (ix2 r k)) (fun k => g (ix2 (0 : Fin 1) k)) := by
    rw [Cert.LibColumn.broadcastTo_a1_ab_apply, scaleOfCol_apply, absMaxCol_apply, hf]
    rfl
  unfold quantOf
  rw [quantWith_apply, hs, normOf_apply]
  rfl

/-! ## The product -/

/-- The matrix product's left operand index at output `j` and shared coordinate `q`: the row of `j`, -/
theorem lhs_row (j : S512x2048.Idx) (q : dot_S512x1024_S2048x1024_S512x2048_1_1_0_0_n_n.contr.Idx) :
    (dot_S512x1024_S2048x1024_S512x2048_1_1_0_0_n_n.lhsIdx j q 0).val = (j 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl

/-- and the shared coordinate; -/
theorem lhs_col (j : S512x2048.Idx) (q : dot_S512x1024_S2048x1024_S512x2048_1_1_0_0_n_n.contr.Idx) :
    (dot_S512x1024_S2048x1024_S512x2048_1_1_0_0_n_n.lhsIdx j q 1).val = (q ⟨0, by decide⟩).val :=
  dot_S512x1024_S2048x1024_S512x2048_1_1_0_0_n_n.lhsIdx_val_of_single rfl j q

/-- the right operand index: the column of `j` (a weight row), -/
theorem rhs_row (j : S512x2048.Idx) (q : dot_S512x1024_S2048x1024_S512x2048_1_1_0_0_n_n.contr.Idx) :
    (dot_S512x1024_S2048x1024_S512x2048_1_1_0_0_n_n.rhsIdx j q 0).val = (j 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl

/-- and the shared coordinate. -/
theorem rhs_col (j : S512x2048.Idx) (q : dot_S512x1024_S2048x1024_S512x2048_1_1_0_0_n_n.contr.Idx) :
    (dot_S512x1024_S2048x1024_S512x2048_1_1_0_0_n_n.rhsIdx j q 1).val = (q ⟨0, by decide⟩).val :=
  dot_S512x1024_S2048x1024_S512x2048_1_1_0_0_n_n.rhsIdx_val_of_single rfl j q

/-- The product into a zero accumulator, at `(r, o)`: the sum over the shared coordinate. -/
theorem product_apply (l : FVec Ideal S512x1024 .bf16) (w : FVec Ideal S2048x1024 .bf16) (r : Fin 512) (o : Fin 2048) :
    FloatOps.matmul dot_S512x1024_S2048x1024_S512x2048_1_1_0_0_n_n none l w (constant S512x2048 .f32 0x00000000#32) (ix2 r o)
      = ∑ k : Fin 1024, l (ix2 r k) * w (ix2 o k) := by
  rw [Ideal.matmul_constant_zero_apply,
    ← Equiv.sum_comp (ValueIdx.contrEquiv1 dot_S512x1024_S2048x1024_S512x2048_1_1_0_0_n_n 1024 rfl rfl).symm]
  refine Finset.sum_congr rfl fun k _ => ?_
  have hk := ValueIdx.contrEquiv1_symm_val dot_S512x1024_S2048x1024_S512x2048_1_1_0_0_n_n 1024 rfl rfl k
  have el : dot_S512x1024_S2048x1024_S512x2048_1_1_0_0_n_n.lhsIdx (ix2 r o)
      ((ValueIdx.contrEquiv1 dot_S512x1024_S2048x1024_S512x2048_1_1_0_0_n_n 1024 rfl rfl).symm k) = ix2 r k :=
    funext fun a => Fin.ext (by
      match a with
      | ⟨0, _⟩ => exact lhs_row _ _
      | ⟨1, _⟩ => exact (lhs_col _ _).trans hk)
  have er : dot_S512x1024_S2048x1024_S512x2048_1_1_0_0_n_n.rhsIdx (ix2 r o)
      ((ValueIdx.contrEquiv1 dot_S512x1024_S2048x1024_S512x2048_1_1_0_0_n_n 1024 rfl rfl).symm k) = ix2 o k :=
    funext fun a => Fin.ext (by
      match a with
      | ⟨0, _⟩ => exact rhs_row _ _
      | ⟨1, _⟩ => exact (rhs_col _ _).trans hk)
  rw [el, er]

/-! ## The stored entry -/

/-- The stored entry `(r, o)` of a block: quantised row `r` against weight row `o` as the block holds it. -/
theorem act_payload (v0 : Vec Ideal S512x1024 .f32) (v2 : Vec Ideal S1x1024 .f32) (v33 : Vec Ideal S2048x1024 .bf16)
    (r : Fin 512) (o : Fin 2048) :
    Gen.k1_pay1 (F := Ideal) v0 v2 v33 (ix2 r o)
      = ∑ k : Fin 1024, rowQuant (fun k => v0 (ix2 r k)) (fun k => v2 (ix2 (0 : Fin 1) k)) k * v33 (ix2 o k) := by
  have e0 : shapeCast S512x1024 v0 shapeCasts_S512x1024_S512x1024 = v0 := shapeCast_self v0 _
  have e2 : shapeCast S1x1024 v2 shapeCasts_S1x1024_S1x1024 = v2 := shapeCast_self v2 _
  have e33 : shapeCast S2048x1024 v33 shapeCasts_S2048x1024_S2048x1024 = v33 := shapeCast_self v33 _
  have hp : Gen.k1_pay1 (F := Ideal) v0 v2 v33 (ix2 r o)
      = FloatOps.matmul dot_S512x1024_S2048x1024_S512x2048_1_1_0_0_n_n none
          (truncf .bf16 (quantOf (normOf (shapeCast S512x1024 v0 shapeCasts_S512x1024_S512x1024)
            (shapeCast S1x1024 v2 shapeCasts_S1x1024_S1x1024))) bitsLt_bf16_f32)
          (shapeCast S2048x1024 v33 shapeCasts_S2048x1024_S2048x1024) (constant S512x2048 .f32 0x00000000#32) (ix2 r o) := rfl
  rw [hp, e0, e2, e33, product_apply]
  refine Finset.sum_congr rfl fun k _ => ?_
  rw [truncf_apply, quantOf_normOf_apply]

end Cert.QLinear

end
-- ==== Proof.LibLayout3.lean ====
/-
  Layout operations on rank-3 vectors read at an index written by coordinates, for any extents: two leading axes merged
  into one by a shape cast (and split again), a leading unit axis broadcast over many, and one row broadcast over a
  whole [c, a, b] box. Each is the general read-at-an-index lemma with its arithmetic side condition discharged.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b, c]` array cast to `[n, c]` (so `n = a · b`) reads, at row `r = p · b + q` and column `k`, the operand at
    `(p, q, k)`: both have row-major position `(p · b + q) · c + k`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (p : Fin a) (q : Fin b)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[n, c]` array cast to `[a, b, c]` reads, at `(p, q, k)`, the operand at row `r = p · b + q`, column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- A `[1, a, b]` array broadcast to `[c, a, b]` reads, at `(p, i, j)`, the operand's one slab at `(i, j)`. -/
theorem broadcastTo_1ab_cab_apply {a b c : ℕ} (v : (⟨3, ![1, a, b]⟩ : Shape).Idx → α)
    (h : (⟨3, ![1, a, b]⟩ : Shape).Broadcasts ⟨3, ![c, a, b]⟩) (p : Fin c) (i : Fin a) (j : Fin b) :
    broadcastTo ⟨3, ![c, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A `[1, 1, b]` array broadcast to `[c, a, b]` reads, at `(p, i, j)`, the operand's one row at `j`. -/
theorem broadcastTo_11b_cab_apply {a b c : ℕ} (v : (⟨3, ![1, 1, b]⟩ : Shape).Idx → α)
    (h : (⟨3, ![1, 1, b]⟩ : Shape).Broadcasts ⟨3, ![c, a, b]⟩) (p : Fin c) (i : Fin a) (j : Fin b) :
    broadcastTo ⟨3, ![c, a, b]⟩ v h (ix3 p i j) = v (ix3 (0 : Fin 1) (0 : Fin 1) j) := by
  refine broadcastTo_apply v h (ix3 p i j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Idealize.ShloMosaic.ValueIdx
-- ==== Proof.KernelValue.lean ====
/-
  What the idealized kernel's result buffer holds at the end. Read backwards through the five segments:
  the result is the 16384 x 2048 product array viewed as [4, 4096, 2048] (row r = b * 4096 + s); the product
  array is written block by block by the second kernel, block t holding rows 512 t to 512 t + 511, each row the
  quantised activation row against every quantised weight row; its activation operand is x viewed as 16384 rows, its
  gain operand the gain viewed as one row, and its weight operand the array the first kernel wrote in its one grid
  point: the quantised weight. Each block is a restriction of one whole-array function, and the blocks cover the
  array, so each array ends as that function.
-/
import proofs.«131781_j68985764708845_2_alg».proof.Proof.KernelRun
import proofs.«131781_j68985764708845_2_alg».proof.Proof.Kernel0
import proofs.«131781_j68985764708845_2_alg».proof.Proof.Kernel1
import proofs.«131781_j68985764708845_2_alg».proof.Proof.LibLayout3
import Idealize.ShloMosaic.Lib.ValueLayout
import Idealize.ShloMosaic.Lib.StableHlo.Run

set_option maxRecDepth 16384

noncomputable section

namespace Cert.KernelIdeal.Named

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.QLinear

theorem origin2 : (![0, 0] : Fin 2 → Nat) = fun _ => 0 := funext fun a => by fin_cases a <;> rfl

/-! ## The two whole-array functions -/

/-- The quantised weight as an array. -/
def wArr (w : S2048x1024.Idx → EReal) : S2048x1024.Idx → EReal :=
  fun i => wQuant (fun o k => w (ix2 o k)) (i 0) (i 1)

/-- The product array: row `r` of `x` normalised with gain row `g` and quantised, against row `o` of `wq`. -/
def outArr (x : S16384x1024.Idx → EReal) (g : S1x1024.Idx → EReal) (wq : S2048x1024.Idx → EReal) :
    S16384x2048.Idx → EReal :=
  fun i => ∑ k : Fin 1024, rowQuant (fun k => x (ix2 (i 0) k)) (fun k => g (ix2 (0 : Fin 1) k)) k * wq (ix2 (i 1) k)

section Regions
variable (V : (c : Dev nD) → (b : Ref sig .tc) → Buf (Elt Ideal) ((c : Thread nD τ).loc b))

/-! ## The first kernel: one grid point, whole blocks -/

/-- Both windows sit at block (0, 0) at the one point. -/
theorem blocks0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- What the point writes back is the block of the quantised weight of the array the kernel reads. -/
theorem flushed0 (c : Dev nD) (t : Fin cfg0.N) :
    (dat0 V c).flushed 1 t = ((cfg0.win 1).blk t).view.read (Elt Ideal) (wArr (V c main_arg1)) := by
  show (cfg0.win 1).cut (grid0.coords t) ((dat0 V c).after 1 t) = _
  rw [after0_1]
  unfold out0_1
  rw [View.canon_unit_zero origin2]
  simp only [View.ld_unit_zero (S := S2048x1024) origin2]
  obtain ⟨e0, e1, e2, e3⟩ := blocks0 t
  funext j
  obtain ⟨o, k, rfl⟩ : ∃ (o : Fin 2048) (k : Fin 1024), j = ix2 o k := ⟨j 0, j 1, eq_ix2 j⟩
  refine (weight_payload (iblk0 V c 0 t) o k).trans ?_
  have hin : (fun (o : Fin 2048) (k : Fin 1024) => iblk0 V c 0 t (ix2 o k)) = fun o k => V c main_arg1 (ix2 o k) := by
    funext o k
    show V c main_arg1 (((cfg0.win 0).blk t).view.emb (ix2 o k)) = V c main_arg1 (ix2 o k)
    refine congrArg (V c main_arg1) (funext fun a => Fin.ext ?_)
    match a with
    | ⟨0, _⟩ => show win0_0.index t (0 : Fin 2) * 2048 + 1 * o.val = o.val; omega
    | ⟨1, _⟩ => show win0_0.index t (1 : Fin 2) * 1024 + 1 * k.val = k.val; omega
  rw [hin]
  have hout : ((cfg0.win 1).blk t).view.emb (ix2 o k) = ix2 o k := by
    funext a; apply Fin.ext
    match a with
    | ⟨0, _⟩ => show win0_1.index t (0 : Fin 2) * 2048 + 1 * o.val = o.val; omega
    | ⟨1, _⟩ => show win0_1.index t (1 : Fin 2) * 1024 + 1 * k.val = k.val; omega
  show _ = wArr (V c main_arg1) (((cfg0.win 1).blk t).view.emb (ix2 o k))
  rw [hout]
  rfl

theorem mem_blk0 (t : Fin cfg0.N) (i : S2048x1024.Idx) :
    i ∈ ((cfg0.win 1).blk t).view.set ↔ ∀ a : Fin 2, win0_1.index t a * S2048x1024.size a ≤ (i a).val
      ∧ (i a).val < win0_1.index t a * S2048x1024.size a + S2048x1024.size a := by
  show i ∈ ((View.whole main_v1).slice (win0_1.rect t)).set ↔ _
  rw [View.set_slice_whole, Rect.mem_set_unit]
  exact Iff.rfl

/-- The first kernel's output array ends as the quantised weight of its input array. -/
theorem final0 (c : Dev nD) : (dat0 V c).arrAt 1 cfg0.N = wArr (V c main_arg1) :=
  (dat0 V c).arrAt_eq_of_cover 1 (wArr (V c main_arg1)) (fun t _ => flushed0 V c t) fun i => by
    refine ⟨t0_0, flush0_1 t0_0, ?_⟩
    rw [mem_blk0]
    obtain ⟨e0, e1, e2, e3⟩ := blocks0 t0_0
    intro a
    match a with
    | ⟨0, _⟩ =>
      have h : (i 0).val < 2048 := (i 0).isLt
      show win0_1.index t0_0 (0 : Fin 2) * 2048 ≤ (i 0).val ∧ (i 0).val < win0_1.index t0_0 (0 : Fin 2) * 2048 + 2048
      omega
    | ⟨1, _⟩ =>
      have h : (i 1).val < 1024 := (i 1).isLt
      show win0_1.index t0_0 (1 : Fin 2) * 1024 ≤ (i 1).val ∧ (i 1).val < win0_1.index t0_0 (1 : Fin 2) * 1024 + 1024
      omega

/-! ## The second kernel: 32 row blocks -/

/-- At point `t` the activation and output windows sit at row block `t`; the gain and weight windows never move. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the product array of the three arrays the kernel reads. -/
theorem flushed1 (c : Dev nD) (t : Fin cfg1.N) :
    (dat1 V c).flushed 3 t
      = ((cfg1.win 3).blk t).view.read (Elt Ideal) (outArr (V c main_v0) (V c main_v2) (V c main_v1)) := by
  show (cfg1.win 3).cut (grid1.coords t) ((dat1 V c).after 3 t) = _
  rw [after1_3]
  unfold out1_3
  rw [View.canon_unit_zero origin2]
  simp only [View.ld_unit_zero (S := S512x1024) origin2, View.ld_unit_zero (S := S1x1024) origin2,
    View.ld_unit_zero (S := S2048x1024) origin2]
  obtain ⟨e0, e1, e2, e3, e4, e5, e6, e7⟩ := blocks1 t
  funext j
  obtain ⟨p, q, rfl⟩ : ∃ (p : Fin 512) (q : Fin 2048), j = ix2 p q := ⟨j 0, j 1, eq_ix2 j⟩
  refine (act_payload (iblk1 V c 0 t) (iblk1 V c 1 t) (iblk1 V c 2 t) p q).trans ?_
  have ht : t.val < 32 := lt_of_lt_of_eq t.isLt N_1
  -- the row of the array that row `p` of block `t` is
  have hx : (fun k : Fin 1024 => iblk1 V c 0 t (ix2 p k))
      = fun k : Fin 1024 => V c main_v0 (ix2 (⟨t.val * 512 + p.val, by omega⟩ : Fin 16384) k) := by
    funext k
    show V c main_v0 (((cfg1.win 0).blk t).view.emb (ix2 p k)) = _
    refine congrArg (V c main_v0) (funext fun a => Fin.ext ?_)
    match a with
    | ⟨0, _⟩ => show win1_0.index t (0 : Fin 2) * 512 + 1 * p.val = t.val * 512 + p.val; omega
    | ⟨1, _⟩ => show win1_0.index t (1 : Fin 2) * 1024 + 1 * k.val = k.val; omega
  have hg : (fun k : Fin 1024 => iblk1 V c 1 t (ix2 (0 : Fin 1) k)) = fun k : Fin 1024 => V c main_v2 (ix2 (0 : Fin 1) k) := by
    funext k
    show V c main_v2 (((cfg1.win 1).blk t).view.emb (ix2 (0 : Fin 1) k)) = _
    refine congrArg (V c main_v2) (funext fun a => Fin.ext ?_)
    match a with
    | ⟨0, _⟩ => show win1_1.index t (0 : Fin 2) * 1 + 1 * 0 = 0; omega
    | ⟨1, _⟩ => show win1_1.index t (1 : Fin 2) * 1024 + 1 * k.val = k.val; omega
  have hw : ∀ k : Fin 1024, iblk1 V c 2 t (ix2 q k) = V c main_v1 (ix2 q k) := by
    intro k
    show V c main_v1 (((cfg1.win 2).blk t).view.emb (ix2 q k)) = _
    refine congrArg (V c main_v1) (funext fun a => Fin.ext ?_)
    match a with
    | ⟨0, _⟩ => show win1_2.index t (0 : Fin 2) * 2048 + 1 * q.val = q.val; omega
    | ⟨1, _⟩ => show win1_2.index t (1 : Fin 2) * 1024 + 1 * k.val = k.val; omega
  have hout : ((cfg1.win 3).blk t).view.emb (ix2 p q) = ix2 (⟨t.val * 512 + p.val, by omega⟩ : Fin 16384) q := by
    funext a; apply Fin.ext
    match a with
    | ⟨0, _⟩ => show win1_3.index t (0 : Fin 2) * 512 + 1 * p.val = t.val * 512 + p.val; omega
    | ⟨1, _⟩ => show win1_3.index t (1 : Fin 2) * 2048 + 1 * q.val = q.val; omega
  rw [hx, hg]
  show _ = outArr (V c main_v0) (V c main_v2) (V c main_v1) (((cfg1.win 3).blk t).view.emb (ix2 p q))
  rw [hout]
  exact Finset.sum_congr rfl fun k _ => by rw [hw k]

theorem mem_blk1 (t : Fin cfg1.N) (i : S16384x2048.Idx) :
    i ∈ ((cfg1.win 3).blk t).view.set ↔ ∀ a : Fin 2, win1_3.index t a * S512x2048.size a ≤ (i a).val
      ∧ (i a).val < win1_3.index t a * S512x2048.size a + S512x2048.size a := by
  show i ∈ ((View.whole main_v3).slice (win1_3.rect t)).set ↔ _
  rw [View.set_slice_whole, Rect.mem_set_unit]
  exact Iff.rfl

/-- The second kernel's output array ends as the product array of its three input arrays: row `r` is in block `r / 512`. -/
theorem final1 (c : Dev nD) :
    (dat1 V c).arrAt 3 cfg1.N = outArr (V c main_v0) (V c main_v2) (V c main_v1) :=
  (dat1 V c).arrAt_eq_of_cover 3 (outArr (V c main_v0) (V c main_v2) (V c main_v1)) (fun t _ => flushed1 V c t) fun i => by
    have hN : grid1.N = 32 := N_1
    have h0 : (i 0).val < 16384 := (i 0).isLt
    have h1 : (i 1).val < 2048 := (i 1).isLt
    let t : Fin cfg1.N := ⟨(i 0).val / 512, by show (i 0).val / 512 < grid1.N; omega⟩
    refine ⟨t, flush1_3 t, ?_⟩
    rw [mem_blk1]
    obtain ⟨e0, e1, e2, e3, e4, e5, e6, e7⟩ := blocks1 t
    have hv : t.val = (i 0).val / 512 := rfl
    intro a
    match a with
    | ⟨0, _⟩ =>
      show win1_3.index t (0 : Fin 2) * 512 ≤ (i 0).val ∧ (i 0).val < win1_3.index t (0 : Fin 2) * 512 + 512
      omega
    | ⟨1, _⟩ =>
      show win1_3.index t (1 : Fin 2) * 2048 ≤ (i 1).val ∧ (i 1).val < win1_3.index t (1 : Fin 2) * 2048 + 2048
      omega

end Regions

/-! ## The segments, folded from the launch memory -/

variable (m : (ℓ : Loc nD τ sig) → Buf (Elt Ideal) ℓ) (ρ : Dev nD → PrngReg)

/-- The second kernel's activation operand: x viewed as 16384 rows. -/
theorem entry_v0 (c : Dev nD) : V3 m ρ c main_v0
    = shapeCast S16384x1024 (m ((c : Thread nD τ).loc main_arg0)) shapeCasts_S4x4096x1024_S16384x1024 := by
  have h3 : W3 m ρ c (Proc.devRef .tc main_v0) = W2 m ρ c (Proc.devRef .tc main_v0) := by
    show StableHlo.after hostOps1 (W2 m ρ c) (Proc.devRef .tc main_v0) = _
    after_results
  have h1 : W1 m ρ c (Proc.devRef .tc main_v0)
      = shapeCast S16384x1024 (m ((c : Thread nD τ).loc main_arg0)) shapeCasts_S4x4096x1024_S16384x1024 := by
    show StableHlo.after hostOps0 (W0 m ρ c) (Proc.devRef .tc main_v0) = _
    after_results
    rfl
  exact h3.trans ((W2_of_ne m ρ c main_v0 (by decide)).trans h1)

/-- Its gain operand: the gain viewed as one row. -/
theorem entry_v2 (c : Dev nD) : V3 m ρ c main_v2
    = shapeCast S1x1024 (m ((c : Thread nD τ).loc main_arg2)) shapeCasts_S1024_S1x1024 := by
  have h3 : W3 m ρ c (Proc.devRef .tc main_v2)
      = shapeCast S1x1024 (W2 m ρ c (Proc.devRef .tc main_arg2)) shapeCasts_S1024_S1x1024 := by
    show StableHlo.after hostOps1 (W2 m ρ c) (Proc.devRef .tc main_v2) = _
    after_results
    rfl
  have h1 : W1 m ρ c (Proc.devRef .tc main_arg2) = m ((c : Thread nD τ).loc main_arg2) := by
    show StableHlo.after hostOps0 (W0 m ρ c) (Proc.devRef .tc main_arg2) = _
    after_results
  rw [show V3 m ρ c main_v2 = W3 m ρ c (Proc.devRef .tc main_v2) from rfl, h3, W2_of_ne m ρ c main_arg2 (by decide), h1]

/-- The first kernel's input: the weight as launched. -/
theorem entry_arg1 (c : Dev nD) : V1 m ρ c main_arg1 = m ((c : Thread nD τ).loc main_arg1) := by
  show StableHlo.after hostOps0 (W0 m ρ c) (Proc.devRef .tc main_arg1) = _
  after_results

/-- The second kernel's weight operand: what the first kernel wrote, the quantised weight. -/
theorem entry_v1 (c : Dev nD) : V3 m ρ c main_v1 = wArr (m ((c : Thread nD τ).loc main_arg1)) := by
  have h3 : W3 m ρ c (Proc.devRef .tc main_v1) = W2 m ρ c (Proc.devRef .tc main_v1) := by
    show StableHlo.after hostOps1 (W2 m ρ c) (Proc.devRef .tc main_v1) = _
    after_results
  rw [show V3 m ρ c main_v1 = W3 m ρ c (Proc.devRef .tc main_v1) from rfl, h3,
    show W2 m ρ c (Proc.devRef .tc main_v1) = _ from W2_arr m ρ c 1, final0, entry_arg1]

/-- The result buffer at the last segment boundary is the specification's function of the three arguments. -/
theorem result_eq (c : Dev nD) : W5 m ρ c (Proc.devRef .tc main_v4)
    = out (m ((c : Thread nD τ).loc main_arg0)) (m ((c : Thread nD τ).loc main_arg1)) (m ((c : Thread nD τ).loc main_arg2)) := by
  have h5 : W5 m ρ c (Proc.devRef .tc main_v4)
      = shapeCast S4x4096x2048 (W4 m ρ c (Proc.devRef .tc main_v3)) shapeCasts_S16384x2048_S4x4096x2048 := by
    show StableHlo.after hostOps2 (W4 m ρ c) (Proc.devRef .tc main_v4) = _
    after_results
    rfl
  rw [h5, show W4 m ρ c (Proc.devRef .tc main_v3) = _ from W4_arr m ρ c 3, final1, entry_v0, entry_v2, entry_v1]
  funext i
  obtain ⟨b, s, o, rfl⟩ : ∃ (b : Fin 4) (s : Fin 4096) (o : Fin 2048), i = ix3 b s o := ⟨i 0, i 1, i 2, eq_ix3 i⟩
  have hb : b.val < 4 := b.isLt
  have hs : s.val < 4096 := s.isLt
  rw [shapeCast_nc_abc_apply _ _ b s o (⟨b.val * 4096 + s.val, by omega⟩ : Fin 16384) rfl]
  have hx : (fun k : Fin 1024 => shapeCast S16384x1024 (m ((c : Thread nD τ).loc main_arg0)) shapeCasts_S4x4096x1024_S16384x1024
        (ix2 (⟨b.val * 4096 + s.val, by omega⟩ : Fin 16384) k))
      = fun k : Fin 1024 => m ((c : Thread nD τ).loc main_arg0) (ix3 b s k) :=
    funext fun k => shapeCast_abc_nc_apply _ _ _ k b s rfl
  have hg : (fun k : Fin 1024 => shapeCast S1x1024 (m ((c : Thread nD τ).loc main_arg2)) shapeCasts_S1024_S1x1024 (ix2 (0 : Fin 1) k))
      = fun k : Fin 1024 => m ((c : Thread nD τ).loc main_arg2) (ix1 k) :=
    funext fun k => shapeCast_a_1a_apply _ _ 0 k
  show ∑ k : Fin 1024,
      rowQuant (fun k => shapeCast S16384x1024 (m ((c : Thread nD τ).loc main_arg0)) shapeCasts_S4x4096x1024_S16384x1024
          (ix2 (⟨b.val * 4096 + s.val, by omega⟩ : Fin 16384) k))
        (fun k => shapeCast S1x1024 (m ((c : Thread nD τ).loc main_arg2)) shapeCasts_S1024_S1x1024 (ix2 (0 : Fin 1) k)) k
        * wArr (m ((c : Thread nD τ).loc main_arg1)) (ix2 o k) = _
  rw [hx, hg]
  rfl

end Cert.KernelIdeal.Named

end
-- ==== Proof.RefStages.lean ====
/-
  The reference program's result as a composition of named stages, at the extended reals. In program order: the
  normalised activations (mean of squares over the last axis, plus eps', inverse square root, times x, times the gain);
  their fake quantisation (largest absolute value of each row from -inf, 127 over that clipped below at eps, then
  scale, round, clamp to the integers -128 and 127 converted to floats, unscale) and the straight-through form
  n + (q(n) - n); the same for the weight with its one scale (1 over the clipped mean of |w| over the whole matrix)
  and the bounds -1 and 1; and the contraction of the two over the shared axis of 1024.
-/
import proofs.«131781_j68985764708845_2_alg».proof.Proof.Gen.ReferenceIdeal
import Idealize.ShloMosaic.PureOps.Ideal

noncomputable section

namespace Cert.QLinear.Ref

open Idealize.ShloMosaic Cert.ReferenceIdeal Cert.ReferenceIdeal.Facts₀

/-- Each row's inverse root mean square, as a `[4, 4096, 1]` array. -/
def invRms (x0 : FVec Ideal S4x4096x1024 .f32) : FVec Ideal S4x4096x1 .f32 :=
  Host.rsqrt (addf
    (Host.divf
      (broadcastInDim S4x4096x1 ![0, 1] bcast_S4x4096_S4x4096x1_0_1
        (Host.reduceAdd (mulf x0 x0) (constant S_ .f32 0x00000000#32) reducesTo_S4x4096x1024_S4x4096_d2 h_S_))
      (broadcastInDim S4x4096x1 ![] bcast_S_S4x4096x1 (constant S_ .f32 0x44800000#32)))
    (broadcastInDim S4x4096x1 ![] bcast_S_S4x4096x1 (constant S_ .f32 0x322BCC77#32)))

/-- The normalised activations times the gain. -/
def normed (x0 : FVec Ideal S4x4096x1024 .f32) (x2 : FVec Ideal S1024 .f32) : FVec Ideal S4x4096x1024 .f32 :=
  mulf (mulf x0 (broadcastInDim S4x4096x1024 ![0, 1, 2] bcast_S4x4096x1_S4x4096x1024_0_1_2 (invRms x0)))
    (broadcastInDim S4x4096x1024 ![0, 1, 2] bcast_S1x1x1024_S4x4096x1024_0_1_2
      (broadcastInDim S1x1x1024 ![2] bcast_S1024_S1x1x1024_2 x2))

/-- Each row's largest absolute value, from -inf. -/
def absMax (n : FVec Ideal S4x4096x1024 .f32) : FVec Ideal S4x4096 .f32 :=
  Host.reduce FloatOps.maximumf (Host.absf n) (constant S_ .f32 0xFF800000#32) reducesTo_S4x4096x1024_S4x4096_d2 h_S_

/-- A `[4, 4096]` array of row maxima turned into the rows' scales, as a `[4, 4096, 1]` array. -/
def scaleOf (mx : FVec Ideal S4x4096 .f32) : FVec Ideal S4x4096x1 .f32 :=
  Host.divf (broadcastInDim S4x4096x1 ![] bcast_S_S4x4096x1 (constant S_ .f32 0x42FE0000#32))
    (maximumf (broadcastInDim S4x4096x1 ![] bcast_S_S4x4096x1 (id (constant S_ .f32 0x3727C5AC#32)))
      (broadcastInDim S4x4096x1 ![0, 1] bcast_S4x4096_S4x4096x1_0_1 mx))

/-- Activations `n` scaled row by row by `sc`, rounded, clamped and unscaled. -/
def quantBy (n : FVec Ideal S4x4096x1024 .f32) (sc : FVec Ideal S4x4096x1 .f32) : FVec Ideal S4x4096x1024 .f32 :=
  Host.divf
    (minimumf (broadcastInDim S4x4096x1024 ![] bcast_S_S4x4096x1024 (sitofp .f32 (constantI S_ 32 127#32)))
      (maximumf (broadcastInDim S4x4096x1024 ![] bcast_S_S4x4096x1024 (sitofp .f32 (constantI S_ 32 4294967168#32)))
        (Host.roundeven (mulf n (broadcastInDim S4x4096x1024 ![0, 1, 2] bcast_S4x4096x1_S4x4096x1024_0_1_2 sc)))))
    (broadcastInDim S4x4096x1024 ![0, 1, 2] bcast_S4x4096x1_S4x4096x1024_0_1_2 sc)

/-- The straight-through form: `n + (q - n)` with `q` the quantisation of `n` by the scales `sc`. -/
def steBy (n : FVec Ideal S4x4096x1024 .f32) (sc : FVec Ideal S4x4096x1 .f32) : FVec Ideal S4x4096x1024 .f32 :=
  addf n (subf (quantBy n sc) n)

/-- The straight-through form of the activations quantised by their own rows' scales. -/
def actSte (n : FVec Ideal S4x4096x1024 .f32) : FVec Ideal S4x4096x1024 .f32 :=
  steBy n (scaleOf (absMax n))

/-- The weight's one scale, a rank-0 array. -/
def wScale0 (x1 : FVec Ideal S2048x1024 .f32) : FVec Ideal S_ .f32 :=
  Host.divf (constant S_ .f32 0x3F800000#32)
    (maximumf (id (constant S_ .f32 0x3727C5AC#32))
      (Host.divf (Host.reduceAdd (Host.absf x1) (constant S_ .f32 0x00000000#32) reducesTo_S2048x1024_S_d0_1 h_S_)
        (constant S_ .f32 0x4A000000#32)))

/-- The weight scaled, rounded, clamped and unscaled. -/
def wQuantR (x1 : FVec Ideal S2048x1024 .f32) : FVec Ideal S2048x1024 .f32 :=
  Host.divf
    (minimumf (broadcastInDim S2048x1024 ![] bcast_S_S2048x1024 (sitofp .f32 (constantI S_ 32 1#32)))
      (maximumf (broadcastInDim S2048x1024 ![] bcast_S_S2048x1024 (sitofp .f32 (constantI S_ 32 4294967295#32)))
        (Host.roundeven (mulf x1 (broadcastInDim S2048x1024 ![] bcast_S_S2048x1024 (wScale0 x1))))))
    (broadcastInDim S2048x1024 ![] bcast_S_S2048x1024 (wScale0 x1))

/-- The straight-through form of the quantised weight. -/
def wSte (x1 : FVec Ideal S2048x1024 .f32) : FVec Ideal S2048x1024 .f32 :=
  addf x1 (subf (wQuantR x1) x1)

/-- The reference's result. -/
def result (x0 : FVec Ideal S4x4096x1024 .f32) (x1 : FVec Ideal S2048x1024 .f32) (x2 : FVec Ideal S1024 .f32) :
    FVec Ideal S4x4096x2048 .f32 :=
  Host.dotGeneral dot_S4x4096x1024_S2048x1024_S4x4096x2048_2_1_01_0_n_n none (actSte (normed x0 x2)) (wSte x1)

end Cert.QLinear.Ref

end
-- ==== Proof.RefRun.lean ====
/-
  The reference program's run. Its main function is a straight line of 68 host operations, so every weakly fair
  execution terminates with each buffer at the fold of the operations over the launch memory. The fold is read in
  stretches, each from an arbitrary memory: the operations that normalise the activations; those that take each row's
  largest absolute value, turn it into the row's scale, and quantise the row and form the straight-through sum; those that do the same for the weight; and the final contraction. A stretch
  reads only what earlier stretches wrote or the arguments, so the reads compose to the staged result.
-/
import proofs.«131781_j68985764708845_2_alg».proof.Proof.Gen.ReferenceIdeal
import proofs.«131781_j68985764708845_2_alg».proof.Proof.RefStages
import Idealize.ShloMosaic.Lib.StableHlo.Run

noncomputable section

namespace Cert.QLinear.RefRun

open Cert.ReferenceIdeal Cert.ReferenceIdeal.Gen Idealize.ShloMosaic Idealize.ShloMosaic.TcCoe Idealize.SL.Sem Idealize.ShloMosaic.StableHlo

variable {F : FTy → Type} [FloatOps F]

/-- The 68 operations of the main function, in order (a called function's operations stand in its call's place). -/
abbrev ops : List (HloOp τ sig (Elt F)) :=
  [ binary main_arg0 main_arg0 main_v0 (mulf : (⟨S4x4096x1024, .f32⟩ : BufTy).Contents (Elt F) → (⟨S4x4096x1024, .f32⟩ : BufTy).Contents (Elt F) → (⟨S4x4096x1024, .f32⟩ : BufTy).Contents (Elt F)),
    nullary main_cst (constant S_ .f32 0x00000000#32),
    binary main_v0 main_cst main_v1 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v1 main_v2 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_0 (constant S_ .f32 0x44800000#32),
    unary main_cst_0 main_v3 (broadcastInDim S4x4096x1 ![] bcast_S_S4x4096x1 : (⟨S_, .f32⟩ : BufTy).Contents (Elt F) → (⟨S4x4096x1, .f32⟩ : BufTy).Contents (Elt F)),
    binary main_v2 main_v3 main_v4 (Host.divf : (⟨S4x4096x1, .f32⟩ : BufTy).Contents (Elt F) → (⟨S4x4096x1, .f32⟩ : BufTy).Contents (Elt F) → (⟨S4x4096x1, .f32⟩ : BufTy).Contents (Elt F)),
    nullary main_cst_1 (constant S_ .f32 0x322BCC77#32),
    unary main_cst_1 main_v5 (broadcastInDim S4x4096x1 ![] bcast_S_S4x4096x1 : (⟨S_, .f32⟩ : BufTy).Contents (Elt F) → (⟨S4x4096x1, .f32⟩ : BufTy).Contents (Elt F)),
    binary main_v4 main_v5 main_v6 (addf : (⟨S4x4096x1, .f32⟩ : BufTy).Contents (Elt F) → (⟨S4x4096x1, .f32⟩ : BufTy).Contents (Elt F) → (⟨S4x4096x1, .f32⟩ : BufTy).Contents (Elt F)),
    unary main_v6 main_v7 (Host.rsqrt : (⟨S4x4096x1, .f32⟩ : BufTy).Contents (Elt F) → (⟨S4x4096x1, .f32⟩ : BufTy).Contents (Elt F)),
    unary main_v7 main_v8 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_arg0 main_v8 main_v9 (mulf : (⟨S4x4096x1024, .f32⟩ : BufTy).Contents (Elt F) → (⟨S4x4096x1024, .f32⟩ : BufTy).Contents (Elt F) → (⟨S4x4096x1024, .f32⟩ : BufTy).Contents (Elt F)),
    unary main_arg2 main_v10 (broadcastInDim S1x1x1024 ![2] bcast_S1024_S1x1x1024_2 : (⟨S1024, .f32⟩ : BufTy).Contents (Elt F) → (⟨S1x1x1024, .f32⟩ : BufTy).Contents (Elt F)),
    unary main_v10 main_v11 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v9 main_v11 main_v12 (mulf : (⟨S4x4096x1024, .f32⟩ : BufTy).Contents (Elt F) → (⟨S4x4096x1024, .f32⟩ : BufTy).Contents (Elt F) → (⟨S4x4096x1024, .f32⟩ : BufTy).Contents (Elt F)),
    unary main_v12 main_v13 (Host.absf : (⟨S4x4096x1024, .f32⟩ : BufTy).Contents (Elt F) → (⟨S4x4096x1024, .f32⟩ : BufTy).Contents (Elt F)),
    nullary main_cst_2 (constant S_ .f32 0xFF800000#32),
    binary main_v13 main_cst_2 main_v14 ((fun x v => Host.reduce FloatOps.maximumf x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v14 main_v15 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_3 (constant S_ .f32 0x3727C5AC#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S4x4096x1, .f32⟩) main_call0_v1) (broadcastInDim S4x4096x1 ![] bcast_S_S4x4096x1),
    TRef.binary (TRef.of (T := ⟨S4x4096x1, .f32⟩) main_call0_v1) (TRef.of (T := ⟨S4x4096x1, .f32⟩) main_v15) (TRef.of (T := ⟨S4x4096x1, .f32⟩) main_v16) maximumf,
    nullary main_cst_4 (constant S_ .f32 0x42FE0000#32),
    unary main_cst_4 main_v17 (broadcastInDim S4x4096x1 ![] bcast_S_S4x4096x1 : (⟨S_, .f32⟩ : BufTy).Contents (Elt F) → (⟨S4x4096x1, .f32⟩ : BufTy).Contents (Elt F)),
    binary main_v17 main_v16 main_v18 (Host.divf : (⟨S4x4096x1, .f32⟩ : BufTy).Contents (Elt F) → (⟨S4x4096x1, .f32⟩ : BufTy).Contents (Elt F) → (⟨S4x4096x1, .f32⟩ : BufTy).Contents (Elt F)),
    unary main_v18 main_v19 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v12 main_v19 main_v20 (mulf : (⟨S4x4096x1024, .f32⟩ : BufTy).Contents (Elt F) → (⟨S4x4096x1024, .f32⟩ : BufTy).Contents (Elt F) → (⟨S4x4096x1024, .f32⟩ : BufTy).Contents (Elt F)),
    TRef.unary (TRef.of (T := ⟨S4x4096x1024, .f32⟩) main_v20) (TRef.of (T := ⟨S4x4096x1024, .f32⟩) main_v21) Host.roundeven,
    nullary main_c (constantI S_ 32 4294967168#32),
    nullary main_c_5 (constantI S_ 32 127#32),
    TRef.unary (TRef.of (T := ⟨S_, .i32⟩) main_c) (TRef.of (T := ⟨S_, .f32⟩) main_call2_v0) (sitofp .f32),
    TRef.unary (TRef.of (T := ⟨S_, .f32⟩) main_call2_v0) (TRef.of (T := ⟨S4x4096x1024, .f32⟩) main_call2_v1) (broadcastInDim S4x4096x1024 ![] bcast_S_S4x4096x1024),
    TRef.binary (TRef.of (T := ⟨S4x4096x1024, .f32⟩) main_call2_v1) (TRef.of (T := ⟨S4x4096x1024, .f32⟩) main_v21) (TRef.of (T := ⟨S4x4096x1024, .f32⟩) main_call2_v2) maximumf,
    TRef.unary (TRef.of (T := ⟨S_, .i32⟩) main_c_5) (TRef.of (T := ⟨S_, .f32⟩) main_call2_v3) (sitofp .f32),
    TRef.unary (TRef.of (T := ⟨S_, .f32⟩) main_call2_v3) (TRef.of (T := ⟨S4x4096x1024, .f32⟩) main_call2_v4) (broadcastInDim S4x4096x1024 ![] bcast_S_S4x4096x1024),
    TRef.binary (TRef.of (T := ⟨S4x4096x1024, .f32⟩) main_call2_v4) (TRef.of (T := ⟨S4x4096x1024, .f32⟩) main_call2_v2) (TRef.of (T := ⟨S4x4096x1024, .f32⟩) main_v22) minimumf,
    unary main_v18 main_v23 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v22 main_v23 main_v24 (Host.divf : (⟨S4x4096x1024, .f32⟩ : BufTy).Contents (Elt F) → (⟨S4x4096x1024, .f32⟩ : BufTy).Contents (Elt F) → (⟨S4x4096x1024, .f32⟩ : BufTy).Contents (Elt F)),
    binary main_v24 main_v12 main_v25 (subf : (⟨S4x4096x1024, .f32⟩ : BufTy).Contents (Elt F) → (⟨S4x4096x1024, .f32⟩ : BufTy).Contents (Elt F) → (⟨S4x4096x1024, .f32⟩ : BufTy).Contents (Elt F)),
    binary main_v12 main_v25 main_v26 (addf : (⟨S4x4096x1024, .f32⟩ : BufTy).Contents (Elt F) → (⟨S4x4096x1024, .f32⟩ : BufTy).Contents (Elt F) → (⟨S4x4096x1024, .f32⟩ : BufTy).Contents (Elt F)),
    unary main_arg1 main_v27 (Host.absf : (⟨S2048x1024, .f32⟩ : BufTy).Contents (Elt F) → (⟨S2048x1024, .f32⟩ : BufTy).Contents (Elt F)),
    nullary main_cst_6 (constant S_ .f32 0x00000000#32),
    binary main_v27 main_cst_6 main_v28 ((fun x v => Host.reduceAdd x v reducesTo_S2048x1024_S_d0_1 h_S_) : (⟨S2048x1024, .f32⟩ : BufTy).Contents (Elt F) → (⟨S_, .f32⟩ : BufTy).Contents (Elt F) → (⟨S_, .f32⟩ : BufTy).Contents (Elt F)),
    nullary main_cst_7 (constant S_ .f32 0x4A000000#32),
    binary main_v28 main_cst_7 main_v29 (Host.divf : (⟨S_, .f32⟩ : BufTy).Contents (Elt F) → (⟨S_, .f32⟩ : BufTy).Contents (Elt F) → (⟨S_, .f32⟩ : BufTy).Contents (Elt F)),
    nullary main_cst_8 (constant S_ .f32 0x3727C5AC#32),
    TRef.unary (TRef.of (T := ⟨S_, .f32⟩) main_cst_8) (TRef.of (T := ⟨S_, .f32⟩) main_call3_v0) id,
    TRef.binary (TRef.of (T := ⟨S_, .f32⟩) main_call3_v0) (TRef.of (T := ⟨S_, .f32⟩) main_v29) (TRef.of (T := ⟨S_, .f32⟩) main_v30) maximumf,
    nullary main_cst_9 (constant S_ .f32 0x3F800000#32),
    binary main_cst_9 main_v30 main_v31 (Host.divf : (⟨S_, .f32⟩ : BufTy).Contents (Elt F) → (⟨S_, .f32⟩ : BufTy).Contents (Elt F) → (⟨S_, .f32⟩ : BufTy).Contents (Elt F)),
    unary main_v31 main_v32 (broadcastInDim S2048x1024 ![] bcast_S_S2048x1024 : (⟨S_, .f32⟩ : BufTy).Contents (Elt F) → (⟨S2048x1024, .f32⟩ : BufTy).Contents (Elt F)),
    binary main_arg1 main_v32 main_v33 (mulf : (⟨S2048x1024, .f32⟩ : BufTy).Contents (Elt F) → (⟨S2048x1024, .f32⟩ : BufTy).Contents (Elt F) → (⟨S2048x1024, .f32⟩ : BufTy).Contents (Elt F)),
    TRef.unary (TRef.of (T := ⟨S2048x1024, .f32⟩) main_v33) (TRef.of (T := ⟨S2048x1024, .f32⟩) main_v34) Host.roundeven,
    nullary main_c_10 (constantI S_ 32 4294967295#32),
    nullary main_c_11 (constantI S_ 32 1#32),
    TRef.unary (TRef.of (T := ⟨S_, .i32⟩) main_c_10) (TRef.of (T := ⟨S_, .f32⟩) main_call5_v0) (sitofp .f32),
    TRef.unary (TRef.of (T := ⟨S_, .f32⟩) main_call5_v0) (TRef.of (T := ⟨S2048x1024, .f32⟩) main_call5_v1) (broadcastInDim S2048x1024 ![] bcast_S_S2048x1024),
    TRef.binary (TRef.of (T := ⟨S2048x1024, .f32⟩) main_call5_v1) (TRef.of (T := ⟨S2048x1024, .f32⟩) main_v34) (TRef.of (T := ⟨S2048x1024, .f32⟩) main_call5_v2) maximumf,
    TRef.unary (TRef.of (T := ⟨S_, .i32⟩) main_c_11) (TRef.of (T := ⟨S_, .f32⟩) main_call5_v3) (sitofp .f32),
    TRef.unary (TRef.of (T := ⟨S_, .f32⟩) main_call5_v3) (TRef.of (T := ⟨S2048x1024, .f32⟩) main_call5_v4) (broadcastInDim S2048x1024 ![] bcast_S_S2048x1024),
    TRef.binary (TRef.of (T := ⟨S2048x1024, .f32⟩) main_call5_v4) (TRef.of (T := ⟨S2048x1024, .f32⟩) main_call5_v2) (TRef.of (T := ⟨S2048x1024, .f32⟩) main_v35) minimumf,
    unary main_v31 main_v36 (broadcastInDim S2048x1024 ![] bcast_S_S2048x1024 : (⟨S_, .f32⟩ : BufTy).Contents (Elt F) → (⟨S2048x1024, .f32⟩ : BufTy).Contents (Elt F)),
    binary main_v35 main_v36 main_v37 (Host.divf : (⟨S2048x1024, .f32⟩ : BufTy).Contents (Elt F) → (⟨S2048x1024, .f32⟩ : BufTy).Contents (Elt F) → (⟨S2048x1024, .f32⟩ : BufTy).Contents (Elt F)),
    binary main_v37 main_arg1 main_v38 (subf : (⟨S2048x1024, .f32⟩ : BufTy).Contents (Elt F) → (⟨S2048x1024, .f32⟩ : BufTy).Contents (Elt F) → (⟨S2048x1024, .f32⟩ : BufTy).Contents (Elt F)),
    binary main_arg1 main_v38 main_v39 (addf : (⟨S2048x1024, .f32⟩ : BufTy).Contents (Elt F) → (⟨S2048x1024, .f32⟩ : BufTy).Contents (Elt F) → (⟨S2048x1024, .f32⟩ : BufTy).Contents (Elt F)),
    binary main_v26 main_v39 main_v40 ((fun l r => Host.dotGeneral dot_S4x4096x1024_S2048x1024_S4x4096x2048_2_1_01_0_n_n none l r) : (⟨S4x4096x1024, .f32⟩ : BufTy).Contents (Elt F) → (⟨S2048x1024, .f32⟩ : BufTy).Contents (Elt F) → (⟨S4x4096x2048, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., binary_bufs_sub ..⟩

/-! ## The stretches -/

/-- Operations 1 to 16: the normalised activations. -/
abbrev opsNorm : List (HloOp τ sig (Elt F)) :=
  [ binary main_arg0 main_arg0 main_v0 (mulf : (⟨S4x4096x1024, .f32⟩ : BufTy).Contents (Elt F) → (⟨S4x4096x1024, .f32⟩ : BufTy).Contents (Elt F) → (⟨S4x4096x1024, .f32⟩ : BufTy).Contents (Elt F)),
    nullary main_cst (constant S_ .f32 0x00000000#32),
    binary main_v0 main_cst main_v1 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v1 main_v2 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_0 (constant S_ .f32 0x44800000#32),
    unary main_cst_0 main_v3 (broadcastInDim S4x4096x1 ![] bcast_S_S4x4096x1 : (⟨S_, .f32⟩ : BufTy).Contents (Elt F) → (⟨S4x4096x1, .f32⟩ : BufTy).Contents (Elt F)),
    binary main_v2 main_v3 main_v4 (Host.divf : (⟨S4x4096x1, .f32⟩ : BufTy).Contents (Elt F) → (⟨S4x4096x1, .f32⟩ : BufTy).Contents (Elt F) → (⟨S4x4096x1, .f32⟩ : BufTy).Contents (Elt F)),
    nullary main_cst_1 (constant S_ .f32 0x322BCC77#32),
    unary main_cst_1 main_v5 (broadcastInDim S4x4096x1 ![] bcast_S_S4x4096x1 : (⟨S_, .f32⟩ : BufTy).Contents (Elt F) → (⟨S4x4096x1, .f32⟩ : BufTy).Contents (Elt F)),
    binary main_v4 main_v5 main_v6 (addf : (⟨S4x4096x1, .f32⟩ : BufTy).Contents (Elt F) → (⟨S4x4096x1, .f32⟩ : BufTy).Contents (Elt F) → (⟨S4x4096x1, .f32⟩ : BufTy).Contents (Elt F)),
    unary main_v6 main_v7 (Host.rsqrt : (⟨S4x4096x1, .f32⟩ : BufTy).Contents (Elt F) → (⟨S4x4096x1, .f32⟩ : BufTy).Contents (Elt F)),
    unary main_v7 main_v8 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_arg0 main_v8 main_v9 (mulf : (⟨S4x4096x1024, .f32⟩ : BufTy).Contents (Elt F) → (⟨S4x4096x1024, .f32⟩ : BufTy).Contents (Elt F) → (⟨S4x4096x1024, .f32⟩ : BufTy).Contents (Elt F)),
    unary main_arg2 main_v10 (broadcastInDim S1x1x1024 ![2] bcast_S1024_S1x1x1024_2 : (⟨S1024, .f32⟩ : BufTy).Contents (Elt F) → (⟨S1x1x1024, .f32⟩ : BufTy).Contents (Elt F)),
    unary main_v10 main_v11 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v9 main_v11 main_v12 (mulf : (⟨S4x4096x1024, .f32⟩ : BufTy).Contents (Elt F) → (⟨S4x4096x1024, .f32⟩ : BufTy).Contents (Elt F) → (⟨S4x4096x1024, .f32⟩ : BufTy).Contents (Elt F)) ]

/-- Operations 17 to 19: each row's largest absolute value. -/
abbrev opsMax : List (HloOp τ sig (Elt F)) :=
  [ unary main_v12 main_v13 (Host.absf : (⟨S4x4096x1024, .f32⟩ : BufTy).Contents (Elt F) → (⟨S4x4096x1024, .f32⟩ : BufTy).Contents (Elt F)),
    nullary main_cst_2 (constant S_ .f32 0xFF800000#32),
    binary main_v13 main_cst_2 main_v14 ((fun x v => Host.reduce FloatOps.maximumf x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)) ]

/-- Operations 20 to 27: the rows' scales. -/
abbrev opsScale : List (HloOp τ sig (Elt F)) :=
  [ unary main_v14 main_v15 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_3 (constant S_ .f32 0x3727C5AC#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S4x4096x1, .f32⟩) main_call0_v1) (broadcastInDim S4x4096x1 ![] bcast_S_S4x4096x1),
    TRef.binary (TRef.of (T := ⟨S4x4096x1, .f32⟩) main_call0_v1) (TRef.of (T := ⟨S4x4096x1, .f32⟩) main_v15) (TRef.of (T := ⟨S4x4096x1, .f32⟩) main_v16) maximumf,
    nullary main_cst_4 (constant S_ .f32 0x42FE0000#32),
    unary main_cst_4 main_v17 (broadcastInDim S4x4096x1 ![] bcast_S_S4x4096x1 : (⟨S_, .f32⟩ : BufTy).Contents (Elt F) → (⟨S4x4096x1, .f32⟩ : BufTy).Contents (Elt F)),
    binary main_v17 main_v16 main_v18 (Host.divf : (⟨S4x4096x1, .f32⟩ : BufTy).Contents (Elt F) → (⟨S4x4096x1, .f32⟩ : BufTy).Contents (Elt F) → (⟨S4x4096x1, .f32⟩ : BufTy).Contents (Elt F)) ]

/-- Operations 28 to 42: the activations' quantisation and straight-through sum. -/
abbrev opsQuant : List (HloOp τ sig (Elt F)) :=
  [ unary main_v18 main_v19 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v12 main_v19 main_v20 (mulf : (⟨S4x4096x1024, .f32⟩ : BufTy).Contents (Elt F) → (⟨S4x4096x1024, .f32⟩ : BufTy).Contents (Elt F) → (⟨S4x4096x1024, .f32⟩ : BufTy).Contents (Elt F)),
    TRef.unary (TRef.of (T := ⟨S4x4096x1024, .f32⟩) main_v20) (TRef.of (T := ⟨S4x4096x1024, .f32⟩) main_v21) Host.roundeven,
    nullary main_c (constantI S_ 32 4294967168#32),
    nullary main_c_5 (constantI S_ 32 127#32),
    TRef.unary (TRef.of (T := ⟨S_, .i32⟩) main_c) (TRef.of (T := ⟨S_, .f32⟩) main_call2_v0) (sitofp .f32),
    TRef.unary (TRef.of (T := ⟨S_, .f32⟩) main_call2_v0) (TRef.of (T := ⟨S4x4096x1024, .f32⟩) main_call2_v1) (broadcastInDim S4x4096x1024 ![] bcast_S_S4x4096x1024),
    TRef.binary (TRef.of (T := ⟨S4x4096x1024, .f32⟩) main_call2_v1) (TRef.of (T := ⟨S4x4096x1024, .f32⟩) main_v21) (TRef.of (T := ⟨S4x4096x1024, .f32⟩) main_call2_v2) maximumf,
    TRef.unary (TRef.of (T := ⟨S_, .i32⟩) main_c_5) (TRef.of (T := ⟨S_, .f32⟩) main_call2_v3) (sitofp .f32),
    TRef.unary (TRef.of (T := ⟨S_, .f32⟩) main_call2_v3) (TRef.of (T := ⟨S4x4096x1024, .f32⟩) main_call2_v4) (broadcastInDim S4x4096x1024 ![] bcast_S_S4x4096x1024),
    TRef.binary (TRef.of (T := ⟨S4x4096x1024, .f32⟩) main_call2_v4) (TRef.of (T := ⟨S4x4096x1024, .f32⟩) main_call2_v2) (TRef.of (T := ⟨S4x4096x1024, .f32⟩) main_v22) minimumf,
    unary main_v18 main_v23 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v22 main_v23 main_v24 (Host.divf : (⟨S4x4096x1024, .f32⟩ : BufTy).Contents (Elt F) → (⟨S4x4096x1024, .f32⟩ : BufTy).Contents (Elt F) → (⟨S4x4096x1024, .f32⟩ : BufTy).Contents (Elt F)),
    binary main_v24 main_v12 main_v25 (subf : (⟨S4x4096x1024, .f32⟩ : BufTy).Contents (Elt F) → (⟨S4x4096x1024, .f32⟩ : BufTy).Contents (Elt F) → (⟨S4x4096x1024, .f32⟩ : BufTy).Contents (Elt F)),
    binary main_v12 main_v25 main_v26 (addf : (⟨S4x4096x1024, .f32⟩ : BufTy).Contents (Elt F) → (⟨S4x4096x1024, .f32⟩ : BufTy).Contents (Elt F) → (⟨S4x4096x1024, .f32⟩ : BufTy).Contents (Elt F)) ]

/-- Operations 43 to 67: the weight's scale, quantisation and straight-through sum. -/
abbrev opsWeight : List (HloOp τ sig (Elt F)) :=
  [ unary main_arg1 main_v27 (Host.absf : (⟨S2048x1024, .f32⟩ : BufTy).Contents (Elt F) → (⟨S2048x1024, .f32⟩ : BufTy).Contents (Elt F)),
    nullary main_cst_6 (constant S_ .f32 0x00000000#32),
    binary main_v27 main_cst_6 main_v28 ((fun x v => Host.reduceAdd x v reducesTo_S2048x1024_S_d0_1 h_S_) : (⟨S2048x1024, .f32⟩ : BufTy).Contents (Elt F) → (⟨S_, .f32⟩ : BufTy).Contents (Elt F) → (⟨S_, .f32⟩ : BufTy).Contents (Elt F)),
    nullary main_cst_7 (constant S_ .f32 0x4A000000#32),
    binary main_v28 main_cst_7 main_v29 (Host.divf : (⟨S_, .f32⟩ : BufTy).Contents (Elt F) → (⟨S_, .f32⟩ : BufTy).Contents (Elt F) → (⟨S_, .f32⟩ : BufTy).Contents (Elt F)),
    nullary main_cst_8 (constant S_ .f32 0x3727C5AC#32),
    TRef.unary (TRef.of (T := ⟨S_, .f32⟩) main_cst_8) (TRef.of (T := ⟨S_, .f32⟩) main_call3_v0) id,
    TRef.binary (TRef.of (T := ⟨S_, .f32⟩) main_call3_v0) (TRef.of (T := ⟨S_, .f32⟩) main_v29) (TRef.of (T := ⟨S_, .f32⟩) main_v30) maximumf,
    nullary main_cst_9 (constant S_ .f32 0x3F800000#32),
    binary main_cst_9 main_v30 main_v31 (Host.divf : (⟨S_, .f32⟩ : BufTy).Contents (Elt F) → (⟨S_, .f32⟩ : BufTy).Contents (Elt F) → (⟨S_, .f32⟩ : BufTy).Contents (Elt F)),
    unary main_v31 main_v32 (broadcastInDim S2048x1024 ![] bcast_S_S2048x1024 : (⟨S_, .f32⟩ : BufTy).Contents (Elt F) → (⟨S2048x1024, .f32⟩ : BufTy).Contents (Elt F)),
    binary main_arg1 main_v32 main_v33 (mulf : (⟨S2048x1024, .f32⟩ : BufTy).Contents (Elt F) → (⟨S2048x1024, .f32⟩ : BufTy).Contents (Elt F) → (⟨S2048x1024, .f32⟩ : BufTy).Contents (Elt F)),
    TRef.unary (TRef.of (T := ⟨S2048x1024, .f32⟩) main_v33) (TRef.of (T := ⟨S2048x1024, .f32⟩) main_v34) Host.roundeven,
    nullary main_c_10 (constantI S_ 32 4294967295#32),
    nullary main_c_11 (constantI S_ 32 1#32),
    TRef.unary (TRef.of (T := ⟨S_, .i32⟩) main_c_10) (TRef.of (T := ⟨S_, .f32⟩) main_call5_v0) (sitofp .f32),
    TRef.unary (TRef.of (T := ⟨S_, .f32⟩) main_call5_v0) (TRef.of (T := ⟨S2048x1024, .f32⟩) main_call5_v1) (broadcastInDim S2048x1024 ![] bcast_S_S2048x1024),
    TRef.binary (TRef.of (T := ⟨S2048x1024, .f32⟩) main_call5_v1) (TRef.of (T := ⟨S2048x1024, .f32⟩) main_v34) (TRef.of (T := ⟨S2048x1024, .f32⟩) main_call5_v2) maximumf,
    TRef.unary (TRef.of (T := ⟨S_, .i32⟩) main_c_11) (TRef.of (T := ⟨S_, .f32⟩) main_call5_v3) (sitofp .f32),
    TRef.unary (TRef.of (T := ⟨S_, .f32⟩) main_call5_v3) (TRef.of (T := ⟨S2048x1024, .f32⟩) main_call5_v4) (broadcastInDim S2048x1024 ![] bcast_S_S2048x1024),
    TRef.binary (TRef.of (T := ⟨S2048x1024, .f32⟩) main_call5_v4) (TRef.of (T := ⟨S2048x1024, .f32⟩) main_call5_v2) (TRef.of (T := ⟨S2048x1024, .f32⟩) main_v35) minimumf,
    unary main_v31 main_v36 (broadcastInDim S2048x1024 ![] bcast_S_S2048x1024 : (⟨S_, .f32⟩ : BufTy).Contents (Elt F) → (⟨S2048x1024, .f32⟩ : BufTy).Contents (Elt F)),
    binary main_v35 main_v36 main_v37 (Host.divf : (⟨S2048x1024, .f32⟩ : BufTy).Contents (Elt F) → (⟨S2048x1024, .f32⟩ : BufTy).Contents (Elt F) → (⟨S2048x1024, .f32⟩ : BufTy).Contents (Elt F)),
    binary main_v37 main_arg1 main_v38 (subf : (⟨S2048x1024, .f32⟩ : BufTy).Contents (Elt F) → (⟨S2048x1024, .f32⟩ : BufTy).Contents (Elt F) → (⟨S2048x1024, .f32⟩ : BufTy).Contents (Elt F)),
    binary main_arg1 main_v38 main_v39 (addf : (⟨S2048x1024, .f32⟩ : BufTy).Contents (Elt F) → (⟨S2048x1024, .f32⟩ : BufTy).Contents (Elt F) → (⟨S2048x1024, .f32⟩ : BufTy).Contents (Elt F)) ]

/-- Operation 68: the contraction. -/
abbrev opsDot : List (HloOp τ sig (Elt F)) :=
  [ binary main_v26 main_v39 main_v40 ((fun l r => Host.dotGeneral dot_S4x4096x1024_S2048x1024_S4x4096x2048_2_1_01_0_n_n none l r) : (⟨S4x4096x1024, .f32⟩ : BufTy).Contents (Elt F) → (⟨S2048x1024, .f32⟩ : BufTy).Contents (Elt F) → (⟨S4x4096x2048, .f32⟩ : BufTy).Contents (Elt F)) ]

set_option maxRecDepth 65536 in
/-- The list is its four stretches, one after the other. -/
theorem ops_split : (ops : List (HloOp τ sig (Elt F))) = opsNorm ++ opsMax ++ opsScale ++ opsQuant ++ opsWeight ++ opsDot := rfl

/-- Running two lists one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

variable (W : Valuation τ sig (Elt Ideal))

set_option maxRecDepth 65536 in
theorem norm_stretch : after (opsNorm (F := Ideal)) W (Proc.devRef .tc main_v12)
    = Ref.normed (W (Proc.devRef .tc main_arg0)) (W (Proc.devRef .tc main_arg2)) := by
  after_results_simp <;> rfl

set_option maxRecDepth 65536 in
theorem norm_stretch_arg1 : after (opsNorm (F := Ideal)) W (Proc.devRef .tc main_arg1) = W (Proc.devRef .tc main_arg1) := by
  after_results_simp <;> rfl

set_option maxRecDepth 65536 in
theorem max_stretch : after (opsMax (F := Ideal)) W (Proc.devRef .tc main_v14) = Ref.absMax (W (Proc.devRef .tc main_v12)) := by
  after_results_simp <;> rfl

set_option maxRecDepth 65536 in
theorem max_stretch_v12 : after (opsMax (F := Ideal)) W (Proc.devRef .tc main_v12) = W (Proc.devRef .tc main_v12) := by
  after_results_simp <;> rfl

set_option maxRecDepth 65536 in
theorem max_stretch_arg1 : after (opsMax (F := Ideal)) W (Proc.devRef .tc main_arg1) = W (Proc.devRef .tc main_arg1) := by
  after_results_simp <;> rfl

set_option maxRecDepth 65536 in
theorem scale_stretch : after (opsScale (F := Ideal)) W (Proc.devRef .tc main_v18) = Ref.scaleOf (W (Proc.devRef .tc main_v14)) := by
  after_results_simp <;> rfl

set_option maxRecDepth 65536 in
theorem scale_stretch_v12 : after (opsScale (F := Ideal)) W (Proc.devRef .tc main_v12) = W (Proc.devRef .tc main_v12) := by
  after_results_simp <;> rfl

set_option maxRecDepth 65536 in
theorem scale_stretch_arg1 : after (opsScale (F := Ideal)) W (Proc.devRef .tc main_arg1) = W (Proc.devRef .tc main_arg1) := by
  after_results_simp <;> rfl

set_option maxRecDepth 65536 in
theorem quant_stretch : after (opsQuant (F := Ideal)) W (Proc.devRef .tc main_v26)
    = Ref.steBy (W (Proc.devRef .tc main_v12)) (W (Proc.devRef .tc main_v18)) := by
  after_results_simp <;> rfl

set_option maxRecDepth 65536 in
theorem quant_stretch_arg1 : after (opsQuant (F := Ideal)) W (Proc.devRef .tc main_arg1) = W (Proc.devRef .tc main_arg1) := by
  after_results_simp <;> rfl

set_option maxRecDepth 65536 in
theorem weight_stretch : after (opsWeight (F := Ideal)) W (Proc.devRef .tc main_v39) = Ref.wSte (W (Proc.devRef .tc main_arg1)) := by
  after_results_simp <;> rfl

set_option maxRecDepth 65536 in
theorem weight_stretch_v26 : after (opsWeight (F := Ideal)) W (Proc.devRef .tc main_v26) = W (Proc.devRef .tc main_v26) := by
  after_results_simp <;> rfl

theorem dot_stretch : after (opsDot (F := Ideal)) W (Proc.devRef .tc main_v40)
    = Host.dotGeneral (F := Ideal) (φ₁ := .f32) (φ₂ := .f32) dot_S4x4096x1024_S2048x1024_S4x4096x2048_2_1_01_0_n_n none
        (W (Proc.devRef .tc main_v26)) (W (Proc.devRef .tc main_v39)) := by
  after_results_simp <;> rfl

/-- The result buffer after all 68 operations, from any memory: the staged result of the three arguments there. -/
theorem value (V : Valuation τ sig (Elt Ideal)) :
    after (ops (F := Ideal)) V (Proc.devRef .tc main_v40)
      = Ref.result (V (Proc.devRef .tc main_arg0)) (V (Proc.devRef .tc main_arg1)) (V (Proc.devRef .tc main_arg2)) := by
  rw [ops_split, after_append, after_append, after_append, after_append, after_append, dot_stretch, weight_stretch,
    weight_stretch_v26, quant_stretch, quant_stretch_arg1, scale_stretch, scale_stretch_v12, scale_stretch_arg1, max_stretch,
    max_stretch_v12, max_stretch_arg1, norm_stretch, norm_stretch_arg1]
  rfl

set_option maxRecDepth 65536 in
set_option maxHeartbeats 27200000 in
/-- On every device, from any memory with zero counters: every weakly fair execution of the main function terminates
    with the result at the staged function of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40)
        = Ref.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v40).trans (value _),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.QLinear.RefRun

end
-- ==== Proof.Consts.lean ====
/-
  The few float words whose value matters. The reference spells its clamp bounds as the integers -1, 1, -128,
  127 (converted to floats exactly); the kernel spells the same bounds as float words. The divisor 1024 and the
  positive epsilon under the square root are needed once, to see that a row's inverse root mean square is a
  real number.
-/
import Idealize.ShloMosaic.PureOps.Ideal

noncomputable section

namespace Cert.QLinear

open Idealize.ShloMosaic

/-- The word of `-1.0` denotes the integer `-1`, the 32-bit pattern of all ones read signed. -/
theorem word_neg_one : Ideal.ofBits .f32 0xBF800000#32 = (((4294967295#32 : BitVec 32).toInt : ℝ) : EReal) := by
  simp [Ideal.ofBits, Ideal.ieee, -EReal.coe_mul]; norm_num

/-- The word of `1.0` denotes the integer `1`. -/
theorem word_one : Ideal.ofBits .f32 0x3F800000#32 = (((1#32 : BitVec 32).toInt : ℝ) : EReal) := by
  simp [Ideal.ofBits, Ideal.ieee, -EReal.coe_mul]; norm_num

/-- The word of `-128.0` denotes the integer `-128`. -/
theorem word_neg_128 : Ideal.ofBits .f32 0xC3000000#32 = (((4294967168#32 : BitVec 32).toInt : ℝ) : EReal) := by
  simp [Ideal.ofBits, Ideal.ieee, -EReal.coe_mul]; norm_num

/-- The word of `127.0` denotes the integer `127`. -/
theorem word_127 : Ideal.ofBits .f32 0x42FE0000#32 = (((127#32 : BitVec 32).toInt : ℝ) : EReal) := by
  simp [Ideal.ofBits, Ideal.ieee, -EReal.coe_mul]; norm_num

/-- The word of `1024.0` denotes the real `1024`. -/
theorem word_1024 : Ideal.ofBits .f32 0x44800000#32 = ((1024 : ℝ) : EReal) := by
  simp [Ideal.ofBits, Ideal.ieee, -EReal.coe_mul]; norm_num

/-- The epsilon under the square root denotes a positive real number. -/
theorem word_eps_pos : ∃ e : ℝ, 0 < e ∧ Ideal.ofBits .f32 0x322BCC77#32 = (e : EReal) := by
  refine ⟨_, ?_, by simp [Ideal.ofBits, Ideal.ieee, -EReal.coe_mul]; rfl⟩
  positivity

end Cert.QLinear

end
-- ==== Proof.Finite.lean ====
/-
  Finiteness. The precondition says that the absolute value of every entry of the three arguments is below +inf:
  every entry is a real number. From that, a row's sum of squares is a nonnegative real, its mean plus the positive
  epsilon is a positive real, so the inverse square root is a real number, and so is every normalised entry
  x_k * rsqrt(..) * g_k. That is what the straight-through sum `n + (q - n) = q` needs of `n`.
-/
import proofs.«131781_j68985764708845_2_alg».proof.Pre_finite_inputs
import proofs.«131781_j68985764708845_2_alg».proof.Proof.Gen.Pre_finite_inputs
import proofs.«131781_j68985764708845_2_alg».proof.Proof.Spec
import proofs.«131781_j68985764708845_2_alg».proof.Proof.Consts
import Idealize.ShloMosaic.Lib.ReduceAll
import Idealize.ShloMosaic.Lib.ValueIdx
import Idealize.ShloMosaic.Lib.Pipeline.Value
import Idealize.ShloMosaic.PureOps.Ideal.Laws

noncomputable section

namespace Cert.QLinear

open Idealize.ShloMosaic

/-! ## A normalised row is real -/

/-- The coercion of the reals into the extended reals commutes with finite sums. -/
theorem coe_finset_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is neither infinity is a real number. -/
theorem exists_real {a : EReal} (h : a ≠ ⊤ ∧ a ≠ ⊥) : ∃ r : ℝ, a = (r : EReal) :=
  ⟨a.toReal, (EReal.coe_toReal h.1 h.2).symm⟩

/-- A row of real numbers has a real inverse root mean square: the mean of squares is nonnegative and the epsilon
    positive, so the inverse square root is taken of a positive real. -/
theorem rowInvRms_real (x : Fin 1024 → EReal) (hx : ∀ k, x k ≠ ⊤ ∧ x k ≠ ⊥) : ∃ r : ℝ, rowInvRms x = (r : EReal) := by
  choose x' hx' using fun k => exists_real (hx k)
  obtain ⟨e, he, hw⟩ := word_eps_pos
  have hs : (∑ k : Fin 1024, x k * x k) = ((∑ k : Fin 1024, x' k * x' k : ℝ) : EReal) := by
    rw [coe_finset_sum]
    exact Finset.sum_congr rfl fun k _ => by rw [hx' k, EReal.coe_mul]
  have hpos : 0 < (∑ k : Fin 1024, x' k * x' k) * (1 / 1024) + e := by
    have h0 : 0 ≤ ∑ k : Fin 1024, x' k * x' k := Finset.sum_nonneg fun k _ => mul_self_nonneg _
    positivity
  unfold rowInvRms
  rw [hs, word_1024, Ideal.div_coe (by norm_num : (1024 : ℝ) ≠ 0), hw, ← EReal.coe_mul, ← EReal.coe_add]
  refine ⟨(Real.sqrt ((∑ k : Fin 1024, x' k * x' k) * (1 / 1024) + e))⁻¹, ?_⟩
  show (if (∑ k : Fin 1024, x' k * x' k) * (1 / 1024) + e < 0 then (⊥ : EReal)
    else if (∑ k : Fin 1024, x' k * x' k) * (1 / 1024) + e = 0 then ⊤ else _) = _
  rw [if_neg (not_lt.mpr hpos.le), if_neg hpos.ne']

/-- Every entry of a normalised row of real numbers with a real gain row is a real number. -/
theorem rowNorm_finite (x g : Fin 1024 → EReal) (hx : ∀ k, x k ≠ ⊤ ∧ x k ≠ ⊥) (hg : ∀ k, g k ≠ ⊤ ∧ g k ≠ ⊥) (k : Fin 1024) :
    rowNorm x g k ≠ ⊤ ∧ rowNorm x g k ≠ ⊥ := by
  obtain ⟨r, hr⟩ := rowInvRms_real x hx
  obtain ⟨a, ha⟩ := exists_real (hx k)
  obtain ⟨b, hb⟩ := exists_real (hg k)
  unfold rowNorm
  rw [hr, ha, hb, ← EReal.coe_mul, ← EReal.coe_mul]
  exact ⟨EReal.coe_ne_top _, EReal.coe_ne_bot _⟩

/-! ## The precondition, entry by entry -/

/-- The word of `+inf` denotes the top element. -/
theorem word_inf : Ideal.ofBits .f32 0x7F800000#32 = ⊤ := by
  simp [Ideal.ofBits, Ideal.ieee]

/-- An entry whose absolute value compares below `+inf` is neither infinity. -/
theorem finite_of_abs_lt (x : EReal) (h : Ideal.cmp .olt (max x (-x)) (Ideal.ofBits .f32 0x7F800000#32) = 1#1) :
    x ≠ ⊤ ∧ x ≠ ⊥ := by
  rw [word_inf] at h
  have hlt : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  constructor
  · rintro rfl
    simp at hlt
  · rintro rfl
    simp at hlt

instance : Subsingleton Cert.Pre_finite_inputs.S_.Idx := ⟨fun a b => funext fun d => d.elim0⟩

open Cert.Pre_finite_inputs Cert.Pre_finite_inputs.Facts in
/-- The precondition's three `all`-reductions, read back: every entry of every argument is a real number. -/
theorem finite_of_pre (a0 : FVec Ideal Cert.Pre_finite_inputs.S4x4096x1024 .f32)
    (a1 : FVec Ideal Cert.Pre_finite_inputs.S2048x1024 .f32) (a2 : FVec Ideal Cert.Pre_finite_inputs.S1024 .f32)
    (h : Cert.Pre_finite_inputs.fn (F := Ideal) a0 a1 a2 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) := by
  have h0 := congrFun h ValueIdx.ix0
  dsimp only [Cert.Pre_finite_inputs.fn] at h0
  change IntOp.andi (IntOp.andi _ _) _ = 1#1 at h0
  obtain ⟨h01, hc⟩ := IntOp.andi_eq_one.mp h0
  obtain ⟨ha, hb⟩ := IntOp.andi_eq_one.mp h01
  refine ⟨fun i => ?_, fun i => ?_, fun i => ?_⟩
  · have e := Host.reduce_andi_all _ _ _ _ _ ha i
    have hbc : broadcastInDim S4x4096x1024 ![] bcast_S_S4x4096x1024 (constant (F := Ideal) S_ .f32 0x7F800000#32) i
        = Ideal.ofBits .f32 0x7F800000#32 := broadcastInDim_apply _ _ _ i ValueIdx.ix0 (fun a => a.elim0)
    change Ideal.cmp .olt (max (a0 i) (-(a0 i)))
      (broadcastInDim S4x4096x1024 ![] bcast_S_S4x4096x1024 (constant (F := Ideal) S_ .f32 0x7F800000#32) i) = 1#1 at e
    rw [hbc] at e
    exact finite_of_abs_lt _ e
  · have e := Host.reduce_andi_all _ _ _ _ _ hb i
    have hbc : broadcastInDim S2048x1024 ![] bcast_S_S2048x1024 (constant (F := Ideal) S_ .f32 0x7F800000#32) i
        = Ideal.ofBits .f32 0x7F800000#32 := broadcastInDim_apply _ _ _ i ValueIdx.ix0 (fun a => a.elim0)
    change Ideal.cmp .olt (max (a1 i) (-(a1 i)))
      (broadcastInDim S2048x1024 ![] bcast_S_S2048x1024 (constant (F := Ideal) S_ .f32 0x7F800000#32) i) = 1#1 at e
    rw [hbc] at e
    exact finite_of_abs_lt _ e
  · have e := Host.reduce_andi_all _ _ _ _ _ hc i
    have hbc : broadcastInDim S1024 ![] bcast_S_S1024 (constant (F := Ideal) S_ .f32 0x7F800000#32) i
        = Ideal.ofBits .f32 0x7F800000#32 := broadcastInDim_apply _ _ _ i ValueIdx.ix0 (fun a => a.elim0)
    change Ideal.cmp .olt (max (a2 i) (-(a2 i)))
      (broadcastInDim S1024 ![] bcast_S_S1024 (constant (F := Ideal) S_ .f32 0x7F800000#32) i) = 1#1 at e
    rw [hbc] at e
    exact finite_of_abs_lt _ e

end Cert.QLinear

end
-- ==== Proof.RefValue.lean ====
/-
  The reference's staged result is the specification, entry by entry, when every argument entry is a real number.
  Each stage is read at an index written by coordinates: a broadcast reads the coordinate it repeats; the row sum is
  zero plus the sum over the last coordinate; the row maximum is the fold of max from -inf over it; the mean of |w| is
  zero plus the sum over both coordinates. The integer clamp bounds converted to floats are the float words the
  specification spells. The straight-through sums `n + (q - n)` collapse to `q` because `n` is real: the normalised
  activation by the finiteness of a row's inverse root mean square, the weight by the precondition.
-/
import proofs.«131781_j68985764708845_2_alg».proof.Proof.RefStages
import proofs.«131781_j68985764708845_2_alg».proof.Proof.Spec
import proofs.«131781_j68985764708845_2_alg».proof.Proof.Consts
import proofs.«131781_j68985764708845_2_alg».proof.Proof.Finite
import proofs.«131781_j68985764708845_2_alg».proof.Proof.LibKeepdims
import Idealize.ShloMosaic.Lib.Pipeline.Value
import Idealize.ShloMosaic.Lib.ValueIdx
import Idealize.ShloMosaic.PureOps.Ideal.Laws

noncomputable section

namespace Cert.QLinear.Ref

open Idealize.ShloMosaic Idealize.ShloMosaic.ValueIdx Cert.ReferenceIdeal Cert.ReferenceIdeal.Facts₀ Cert.QLinear

variable {α : Type}

/-! ## Broadcasts at an index -/

theorem rows_keep_apply (y : S4x4096.Idx → α) (b : Fin 4) (s : Fin 4096) (u : Fin 1) :
    broadcastInDim S4x4096x1 ![0, 1] bcast_S4x4096_S4x4096x1_0_1 y (ix3 b s u) = y (ix2 b s) :=
  broadcastInDim_apply _ bcast_S4x4096_S4x4096x1_0_1 y (ix3 b s u) (ix2 b s) (fun a => match a with
    | ⟨0, _⟩ => by show b.val = if (4 : Nat) = 1 then 0 else b.val; rw [if_neg (by decide)]
    | ⟨1, _⟩ => by show s.val = if (4096 : Nat) = 1 then 0 else s.val; rw [if_neg (by decide)])

theorem rows_spread_apply (y : S4x4096x1.Idx → α) (b : Fin 4) (s : Fin 4096) (k : Fin 1024) :
    broadcastInDim S4x4096x1024 ![0, 1, 2] bcast_S4x4096x1_S4x4096x1024_0_1_2 y (ix3 b s k) = y (ix3 b s (0 : Fin 1)) :=
  broadcastInDim_apply _ bcast_S4x4096x1_S4x4096x1024_0_1_2 y (ix3 b s k) (ix3 b s (0 : Fin 1)) (fun a => match a with
    | ⟨0, _⟩ => by show b.val = if (4 : Nat) = 1 then 0 else b.val; rw [if_neg (by decide)]
    | ⟨1, _⟩ => by show s.val = if (4096 : Nat) = 1 then 0 else s.val; rw [if_neg (by decide)]
    | ⟨2, _⟩ => by show 0 = if (1 : Nat) = 1 then 0 else k.val; rw [if_pos rfl])

theorem gain_row_apply (y : S1024.Idx → α) (u v : Fin 1) (k : Fin 1024) :
    broadcastInDim S1x1x1024 ![2] bcast_S1024_S1x1x1024_2 y (ix3 u v k) = y (ix1 k) :=
  broadcastInDim_apply _ bcast_S1024_S1x1x1024_2 y (ix3 u v k) (ix1 k) (fun a => match a with
    | ⟨0, _⟩ => by show k.val = if (1024 : Nat) = 1 then 0 else k.val; rw [if_neg (by decide)])

theorem gain_spread_apply (y : S1x1x1024.Idx → α) (b : Fin 4) (s : Fin 4096) (k : Fin 1024) :
    broadcastInDim S4x4096x1024 ![0, 1, 2] bcast_S1x1x1024_S4x4096x1024_0_1_2 y (ix3 b s k)
      = y (ix3 (0 : Fin 1) (0 : Fin 1) k) :=
  broadcastInDim_apply _ bcast_S1x1x1024_S4x4096x1024_0_1_2 y (ix3 b s k) (ix3 (0 : Fin 1) (0 : Fin 1) k) (fun a => match a with
    | ⟨0, _⟩ => by show 0 = if (1 : Nat) = 1 then 0 else b.val; rw [if_pos rfl]
    | ⟨1, _⟩ => by show 0 = if (1 : Nat) = 1 then 0 else s.val; rw [if_pos rfl]
    | ⟨2, _⟩ => by show k.val = if (1024 : Nat) = 1 then 0 else k.val; rw [if_neg (by decide)])

theorem splat_col_apply (y : S_.Idx → α) (i : S4x4096x1.Idx) :
    broadcastInDim S4x4096x1 ![] bcast_S_S4x4096x1 y i = y ix0 :=
  broadcastInDim_apply _ bcast_S_S4x4096x1 y i ix0 (fun a => a.elim0)

theorem splat_act_apply (y : S_.Idx → α) (i : S4x4096x1024.Idx) :
    broadcastInDim S4x4096x1024 ![] bcast_S_S4x4096x1024 y i = y ix0 :=
  broadcastInDim_apply _ bcast_S_S4x4096x1024 y i ix0 (fun a => a.elim0)

theorem splat_w_apply (y : S_.Idx → α) (i : S2048x1024.Idx) :
    broadcastInDim S2048x1024 ![] bcast_S_S2048x1024 y i = y ix0 :=
  broadcastInDim_apply _ bcast_S_S2048x1024 y i ix0 (fun a => a.elim0)

/-! ## Reductions at an index -/

/-- The row sum from zero: the sum over the last coordinate. -/
theorem rowSum_apply (y : FVec Ideal S4x4096x1024 .f32) (b : Fin 4) (s : Fin 4096) :
    Host.reduceAdd y (constant S_ .f32 0x00000000#32) reducesTo_S4x4096x1024_S4x4096_d2 h_S_ (ix2 b s)
      = ∑ k : Fin 1024, y (ix3 b s k) := by
  simp only [Host.reduceAdd, Ideal.hostReduceAdd_def]
  rw [Ideal.hostReduceAdd_single reducesTo_S4x4096x1024_S4x4096_d2 (by decide)]
  show Ideal.ofBits .f32 0x00000000#32 + _ = _
  rw [Ideal.ofBits_zero_f32, zero_add]
  exact Finset.sum_congr rfl fun k _ => congrArg y (Cert.LibKeepdims.lift_last3 _ b s k)

/-- The row maximum from -inf: the fold of max over the last coordinate. -/
theorem rowMax_apply (y : FVec Ideal S4x4096x1024 .f32) (b : Fin 4) (s : Fin 4096) :
    Host.reduce FloatOps.maximumf y (constant S_ .f32 0xFF800000#32) reducesTo_S4x4096x1024_S4x4096_d2 h_S_ (ix2 b s)
      = (Finset.univ : Finset (Fin 1024)).fold max (Ideal.ofBits .f32 0xFF800000#32) (fun k => y (ix3 b s k)) := by
  have hr : S4x4096x1024.Reduces [2] S4x4096 := by decide
  rw [Host.reduce_eq_fold_single FloatOps.maximumf y _ reducesTo_S4x4096x1024_S4x4096_d2 hr h_S_]
  have hf : (y ∘ hr.lift (ix2 b s)) = fun k : Fin 1024 => y (ix3 b s k) :=
    funext fun k => congrArg y (Cert.LibKeepdims.lift_last3 hr b s k)
  exact congrArg (fun f => Finset.fold max (Ideal.ofBits .f32 0xFF800000#32) f (Finset.univ : Finset (Fin 1024))) hf

/-- The total from zero: the sum over both coordinates. -/
theorem total_apply (y : FVec Ideal S2048x1024 .f32) (i : S_.Idx) :
    Host.reduceAdd y (constant S_ .f32 0x00000000#32) reducesTo_S2048x1024_S_d0_1 h_S_ i
      = ∑ o : Fin 2048, ∑ k : Fin 1024, y (ix2 o k) := by
  simp only [Host.reduceAdd, Ideal.hostReduceAdd_def]
  rw [Ideal.hostReduceAdd_total reducesTo_S2048x1024_S_d0_1 (fun b => b.elim0)]
  show Ideal.ofBits .f32 0x00000000#32 + _ = _
  rw [Ideal.ofBits_zero_f32, zero_add, sum_idx2]

/-! ## The activations -/

theorem invRms_apply (x0 : FVec Ideal S4x4096x1024 .f32) (b : Fin 4) (s : Fin 4096) (u : Fin 1) :
    invRms x0 (ix3 b s u) = rowInvRms (fun k => x0 (ix3 b s k)) := by
  have h1 := rows_keep_apply (Host.reduceAdd (mulf x0 x0) (constant S_ .f32 0x00000000#32) reducesTo_S4x4096x1024_S4x4096_d2 h_S_) b s u
  rw [rowSum_apply] at h1
  show Ideal.rsqrt (Ideal.div
      (broadcastInDim S4x4096x1 ![0, 1] bcast_S4x4096_S4x4096x1_0_1
        (Host.reduceAdd (mulf x0 x0) (constant S_ .f32 0x00000000#32) reducesTo_S4x4096x1024_S4x4096_d2 h_S_) (ix3 b s u))
      (broadcastInDim S4x4096x1 ![] bcast_S_S4x4096x1 (constant (F := Ideal) S_ .f32 0x44800000#32) (ix3 b s u))
    + broadcastInDim S4x4096x1 ![] bcast_S_S4x4096x1 (constant (F := Ideal) S_ .f32 0x322BCC77#32) (ix3 b s u)) = _
  rw [h1, splat_col_apply, splat_col_apply]
  rfl

theorem normed_apply (x0 : FVec Ideal S4x4096x1024 .f32) (x2 : FVec Ideal S1024 .f32) (b : Fin 4) (s : Fin 4096) (k : Fin 1024) :
    normed x0 x2 (ix3 b s k) = rowNorm (fun k => x0 (ix3 b s k)) (fun k => x2 (ix1 k)) k := by
  show x0 (ix3 b s k) * broadcastInDim S4x4096x1024 ![0, 1, 2] bcast_S4x4096x1_S4x4096x1024_0_1_2 (invRms x0) (ix3 b s k)
      * broadcastInDim S4x4096x1024 ![0, 1, 2] bcast_S1x1x1024_S4x4096x1024_0_1_2
          (broadcastInDim S1x1x1024 ![2] bcast_S1024_S1x1x1024_2 x2) (ix3 b s k) = _
  rw [rows_spread_apply, invRms_apply, gain_spread_apply, gain_row_apply]
  rfl

theorem absMax_apply (n : FVec Ideal S4x4096x1024 .f32) (b : Fin 4) (s : Fin 4096) :
    absMax n (ix2 b s)
      = (Finset.univ : Finset (Fin 1024)).fold max (Ideal.ofBits .f32 0xFF800000#32) (fun k => eabs (n (ix3 b s k))) :=
  rowMax_apply (Host.absf n) b s

theorem scaleOf_apply (mx : FVec Ideal S4x4096 .f32) (b : Fin 4) (s : Fin 4096) (u : Fin 1) :
    scaleOf mx (ix3 b s u) = Ideal.div (Ideal.ofBits .f32 0x42FE0000#32) (max (Ideal.ofBits .f32 0x3727C5AC#32) (mx (ix2 b s))) := by
  show Ideal.div (broadcastInDim S4x4096x1 ![] bcast_S_S4x4096x1 (constant (F := Ideal) S_ .f32 0x42FE0000#32) (ix3 b s u))
      (max (broadcastInDim S4x4096x1 ![] bcast_S_S4x4096x1 (id (constant (F := Ideal) S_ .f32 0x3727C5AC#32)) (ix3 b s u))
        (broadcastInDim S4x4096x1 ![0, 1] bcast_S4x4096_S4x4096x1_0_1 mx (ix3 b s u))) = _
  rw [splat_col_apply, splat_col_apply, rows_keep_apply]
  rfl

theorem quantBy_apply (n : FVec Ideal S4x4096x1024 .f32) (sc : FVec Ideal S4x4096x1 .f32) (b : Fin 4) (s : Fin 4096) (k : Fin 1024) :
    quantBy n sc (ix3 b s k)
      = fakeQuant (Ideal.ofBits .f32 0xC3000000#32) (Ideal.ofBits .f32 0x42FE0000#32) (sc (ix3 b s (0 : Fin 1))) (n (ix3 b s k)) := by
  show Ideal.div
      (min (broadcastInDim S4x4096x1024 ![] bcast_S_S4x4096x1024 (sitofp (F := Ideal) .f32 (constantI S_ 32 127#32)) (ix3 b s k))
        (max (broadcastInDim S4x4096x1024 ![] bcast_S_S4x4096x1024 (sitofp (F := Ideal) .f32 (constantI S_ 32 4294967168#32)) (ix3 b s k))
          (Ideal.liftRound Ideal.roundHalfEven
            (n (ix3 b s k) * broadcastInDim S4x4096x1024 ![0, 1, 2] bcast_S4x4096x1_S4x4096x1024_0_1_2 sc (ix3 b s k)))))
      (broadcastInDim S4x4096x1024 ![0, 1, 2] bcast_S4x4096x1_S4x4096x1024_0_1_2 sc (ix3 b s k)) = _
  rw [splat_act_apply, splat_act_apply, rows_spread_apply, word_neg_128, word_127]
  rfl

/-- The straight-through sum at an index, for any activations and any scales. -/
theorem steBy_apply (n : FVec Ideal S4x4096x1024 .f32) (sc : FVec Ideal S4x4096x1 .f32) (i : S4x4096x1024.Idx) :
    steBy n sc i = n i + (quantBy n sc i - n i) := rfl

/-- The straight-through activations are the quantised rows. -/
theorem actSte_normed_apply (x0 : FVec Ideal S4x4096x1024 .f32) (x2 : FVec Ideal S1024 .f32)
    (h0 : ∀ i, x0 i ≠ ⊤ ∧ x0 i ≠ ⊥) (h2 : ∀ i, x2 i ≠ ⊤ ∧ x2 i ≠ ⊥) (b : Fin 4) (s : Fin 4096) (k : Fin 1024) :
    actSte (normed x0 x2) (ix3 b s k) = rowQuant (fun k => x0 (ix3 b s k)) (fun k => x2 (ix1 k)) k := by
  have hfin := rowNorm_finite (fun k => x0 (ix3 b s k)) (fun k => x2 (ix1 k)) (fun k => h0 _) (fun k => h2 _) k
  have hf : (fun k : Fin 1024 => eabs (normed x0 x2 (ix3 b s k)))
      = fun k : Fin 1024 => eabs (rowNorm (fun k => x0 (ix3 b s k)) (fun k => x2 (ix1 k)) k) :=
    funext fun k => congrArg eabs (normed_apply x0 x2 b s k)
  have hs : scaleOf (absMax (normed x0 x2)) (ix3 b s (0 : Fin 1))
      = rowScale (fun k => x0 (ix3 b s k)) (fun k => x2 (ix1 k)) := by
    rw [scaleOf_apply, absMax_apply, hf]
    rfl
  unfold actSte
  rw [steBy_apply, quantBy_apply, hs, normed_apply]
  exact add_sub_cancel_of_finite _ _ hfin.1 hfin.2

/-! ## The weight -/

theorem wScale0_apply (x1 : FVec Ideal S2048x1024 .f32) (i : S_.Idx) :
    wScale0 x1 i = wScale (fun o k => x1 (ix2 o k)) := by
  have ht := total_apply (Host.absf x1) i
  show Ideal.div (Ideal.ofBits .f32 0x3F800000#32) (max (Ideal.ofBits .f32 0x3727C5AC#32)
      (Ideal.div (Host.reduceAdd (Host.absf x1) (constant S_ .f32 0x00000000#32) reducesTo_S2048x1024_S_d0_1 h_S_ i)
        (Ideal.ofBits .f32 0x4A000000#32))) = _
  rw [ht]
  rfl

theorem wQuantR_apply (x1 : FVec Ideal S2048x1024 .f32) (o : Fin 2048) (k : Fin 1024) :
    wQuantR x1 (ix2 o k) = wQuant (fun o k => x1 (ix2 o k)) o k := by
  show Ideal.div
      (min (broadcastInDim S2048x1024 ![] bcast_S_S2048x1024 (sitofp (F := Ideal) .f32 (constantI S_ 32 1#32)) (ix2 o k))
        (max (broadcastInDim S2048x1024 ![] bcast_S_S2048x1024 (sitofp (F := Ideal) .f32 (constantI S_ 32 4294967295#32)) (ix2 o k))
          (Ideal.liftRound Ideal.roundHalfEven
            (x1 (ix2 o k) * broadcastInDim S2048x1024 ![] bcast_S_S2048x1024 (wScale0 x1) (ix2 o k)))))
      (broadcastInDim S2048x1024 ![] bcast_S_S2048x1024 (wScale0 x1) (ix2 o k)) = _
  rw [splat_w_apply, splat_w_apply, splat_w_apply, wScale0_apply]
  unfold wQuant
  rw [word_neg_one, word_one]
  rfl

/-- A sum with a difference, at an index, for any two arrays. -/
theorem addf_subf_apply (x q : FVec Ideal S2048x1024 .f32) (i : S2048x1024.Idx) :
    addf x (subf q x) i = x i + (q i - x i) := rfl

/-- The straight-through weight is the quantised weight. -/
theorem wSte_apply (x1 : FVec Ideal S2048x1024 .f32) (h1 : ∀ i, x1 i ≠ ⊤ ∧ x1 i ≠ ⊥) (o : Fin 2048) (k : Fin 1024) :
    wSte x1 (ix2 o k) = wQuant (fun o k => x1 (ix2 o k)) o k := by
  unfold wSte
  rw [addf_subf_apply, wQuantR_apply]
  exact add_sub_cancel_of_finite _ _ (h1 _).1 (h1 _).2

/-! ## The contraction -/

theorem lhs_b (i : S4x4096x2048.Idx) (q : dot_S4x4096x1024_S2048x1024_S4x4096x2048_2_1_01_0_n_n.contr.Idx) :
    (dot_S4x4096x1024_S2048x1024_S4x4096x2048_2_1_01_0_n_n.lhsIdx i q 0).val = (i 0).val := by
  unfold DotDims.lhsIdx
  rw [dif_neg (show ¬(0 : Fin S4x4096x1024.rank) ∈ dot_S4x4096x1024_S2048x1024_S4x4096x2048_2_1_01_0_n_n.lhsBatch by decide),
    dif_pos (show (0 : Fin S4x4096x1024.rank) ∈ dot_S4x4096x1024_S2048x1024_S4x4096x2048_2_1_01_0_n_n.lhsNonContracting by decide)]
  rfl
theorem lhs_s (i : S4x4096x2048.Idx) (q : dot_S4x4096x1024_S2048x1024_S4x4096x2048_2_1_01_0_n_n.contr.Idx) :
    (dot_S4x4096x1024_S2048x1024_S4x4096x2048_2_1_01_0_n_n.lhsIdx i q 1).val = (i 1).val := by
  unfold DotDims.lhsIdx
  rw [dif_neg (show ¬(1 : Fin S4x4096x1024.rank) ∈ dot_S4x4096x1024_S2048x1024_S4x4096x2048_2_1_01_0_n_n.lhsBatch by decide),
    dif_pos (show (1 : Fin S4x4096x1024.rank) ∈ dot_S4x4096x1024_S2048x1024_S4x4096x2048_2_1_01_0_n_n.lhsNonContracting by decide)]
  rfl
theorem lhs_k (i : S4x4096x2048.Idx) (q : dot_S4x4096x1024_S2048x1024_S4x4096x2048_2_1_01_0_n_n.contr.Idx) :
    (dot_S4x4096x1024_S2048x1024_S4x4096x2048_2_1_01_0_n_n.lhsIdx i q 2).val = (q ⟨0, by decide⟩).val :=
  dot_S4x4096x1024_S2048x1024_S4x4096x2048_2_1_01_0_n_n.lhsIdx_val_of_single rfl i q
theorem rhs_o (i : S4x4096x2048.Idx) (q : dot_S4x4096x1024_S2048x1024_S4x4096x2048_2_1_01_0_n_n.contr.Idx) :
    (dot_S4x4096x1024_S2048x1024_S4x4096x2048_2_1_01_0_n_n.rhsIdx i q 0).val = (i 2).val := by
  unfold DotDims.rhsIdx
  rw [dif_neg (show ¬(0 : Fin S2048x1024.rank) ∈ dot_S4x4096x1024_S2048x1024_S4x4096x2048_2_1_01_0_n_n.rhsBatch by decide),
    dif_pos (show (0 : Fin S2048x1024.rank) ∈ dot_S4x4096x1024_S2048x1024_S4x4096x2048_2_1_01_0_n_n.rhsNonContracting by decide)]
  rfl
theorem rhs_k (i : S4x4096x2048.Idx) (q : dot_S4x4096x1024_S2048x1024_S4x4096x2048_2_1_01_0_n_n.contr.Idx) :
    (dot_S4x4096x1024_S2048x1024_S4x4096x2048_2_1_01_0_n_n.rhsIdx i q 1).val = (q ⟨0, by decide⟩).val :=
  dot_S4x4096x1024_S2048x1024_S4x4096x2048_2_1_01_0_n_n.rhsIdx_val_of_single rfl i q

/-- The contraction at `(b, s, o)`: the sum over the shared coordinate of row `(b, s)` against weight row `o`. -/
theorem contraction_apply (l : FVec Ideal S4x4096x1024 .f32) (w : FVec Ideal S2048x1024 .f32) (b : Fin 4) (s : Fin 4096) (o : Fin 2048) :
    Host.dotGeneral dot_S4x4096x1024_S2048x1024_S4x4096x2048_2_1_01_0_n_n none l w (ix3 b s o)
      = ∑ k : Fin 1024, l (ix3 b s k) * w (ix2 o k) := by
  simp only [Host.dotGeneral]
  rw [Ideal.dotGeneral_apply,
    ← Equiv.sum_comp (ValueIdx.contrEquiv1 dot_S4x4096x1024_S2048x1024_S4x4096x2048_2_1_01_0_n_n 1024 rfl rfl).symm]
  refine Finset.sum_congr rfl fun k _ => ?_
  have hk := ValueIdx.contrEquiv1_symm_val dot_S4x4096x1024_S2048x1024_S4x4096x2048_2_1_01_0_n_n 1024 rfl rfl k
  have el : dot_S4x4096x1024_S2048x1024_S4x4096x2048_2_1_01_0_n_n.lhsIdx (ix3 b s o)
      ((ValueIdx.contrEquiv1 dot_S4x4096x1024_S2048x1024_S4x4096x2048_2_1_01_0_n_n 1024 rfl rfl).symm k) = ix3 b s k :=
    funext fun a => Fin.ext (by
      match a with
      | ⟨0, _⟩ => exact lhs_b _ _
      | ⟨1, _⟩ => exact lhs_s _ _
      | ⟨2, _⟩ => exact (lhs_k _ _).trans hk)
  have er : dot_S4x4096x1024_S2048x1024_S4x4096x2048_2_1_01_0_n_n.rhsIdx (ix3 b s o)
      ((ValueIdx.contrEquiv1 dot_S4x4096x1024_S2048x1024_S4x4096x2048_2_1_01_0_n_n 1024 rfl rfl).symm k) = ix2 o k :=
    funext fun a => Fin.ext (by
      match a with
      | ⟨0, _⟩ => exact rhs_o _ _
      | ⟨1, _⟩ => exact (rhs_k _ _).trans hk)
  rw [el, er]

/-! ## The result -/

/-- The reference's result is the specification's function of real-valued arguments. -/
theorem result_eq_out (x0 : FVec Ideal S4x4096x1024 .f32) (x1 : FVec Ideal S2048x1024 .f32) (x2 : FVec Ideal S1024 .f32)
    (h0 : ∀ i, x0 i ≠ ⊤ ∧ x0 i ≠ ⊥) (h1 : ∀ i, x1 i ≠ ⊤ ∧ x1 i ≠ ⊥) (h2 : ∀ i, x2 i ≠ ⊤ ∧ x2 i ≠ ⊥) :
    result x0 x1 x2 = out x0 x1 x2 := by
  funext i
  obtain ⟨b, s, o, rfl⟩ : ∃ (b : Fin 4) (s : Fin 4096) (o : Fin 2048), i = ix3 b s o := ⟨i 0, i 1, i 2, eq_ix3 i⟩
  unfold result
  rw [contraction_apply]
  exact Finset.sum_congr rfl fun k _ => by rw [actSte_normed_apply x0 x2 h0 h2 b s k, wSte_apply x1 h1 o k]

end Cert.QLinear.Ref

end
-- ==== Proof.lean ====
/-
  A linear layer on fake-quantised values: RMS-normalised activations quantised to 8-bit levels row by row, against a
  weight matrix quantised to ternary levels with one scale, contracted over the 1024 shared coordinates.

  The kernel computes it in two launches (the weight's quantisation in one grid point; then, 512 rows at a time, the
  activations' normalisation and quantisation and the matrix product) between reshapes; the reference computes it
  with whole-array operations and writes each quantisation in the straight-through form n + (q(n) - n).

  Over the extended reals both end at the same function of the three arguments (Proof/Spec.lean). The kernel's side
  needs no hypothesis: it is an index computation (which row of which block; the two-step total of |W| as a double
  sum; the matrix unit's product as a sum) and changes of float format, which are the identity. The reference's side
  needs n + (q - n) = q, which holds because n is a real number: the weight by the precondition, and the normalised
  activation because a real row has a nonnegative mean of squares, the epsilon added to it is positive, and the
  inverse square root of a positive real is real. The two row maxima are the same fold of max from the same -inf word
  and the literals are the same words on both sides, except the clamp bounds, which the reference spells as integers.

  The three frame claims are the programs' runs with the result forgotten; no rewrite was applied in idealising the
  kernel, so there is nothing to preserve.
-/
import proofs.«131781_j68985764708845_2_alg».proof.Defs
import proofs.«131781_j68985764708845_2_alg».proof.Proof.Gen.Kernel
import proofs.«131781_j68985764708845_2_alg».proof.Proof.Gen.Kernel.Skeleton
import proofs.«131781_j68985764708845_2_alg».proof.Proof.Gen.Kernel.Launch
import proofs.«131781_j68985764708845_2_alg».proof.Proof.Gen.Kernel.Points
import proofs.«131781_j68985764708845_2_alg».proof.Proof.Gen.Kernel.Frame
import proofs.«131781_j68985764708845_2_alg».proof.Proof.Gen.KernelIdeal
import proofs.«131781_j68985764708845_2_alg».proof.Proof.Gen.KernelIdeal.Skeleton
import proofs.«131781_j68985764708845_2_alg».proof.Proof.Gen.KernelIdeal.Launch
import proofs.«131781_j68985764708845_2_alg».proof.Proof.Gen.KernelIdeal.Points
import proofs.«131781_j68985764708845_2_alg».proof.Proof.Gen.KernelIdeal.Frame
import proofs.«131781_j68985764708845_2_alg».proof.Proof.Gen.ReferenceIdeal
import proofs.«131781_j68985764708845_2_alg».proof.Proof.Gen.Pre_finite_inputs
import proofs.«131781_j68985764708845_2_alg».proof.Proof.KernelRun
import proofs.«131781_j68985764708845_2_alg».proof.Proof.KernelValue
import proofs.«131781_j68985764708845_2_alg».proof.Proof.RefRun
import proofs.«131781_j68985764708845_2_alg».proof.Proof.RefValue
import proofs.«131781_j68985764708845_2_alg».proof.Proof.Finite
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result forgotten. -/
theorem frame_referenceIdeal : Cert.frame_ReferenceIdeal := fun m ρ _ =>
  (θ_run Cert.ReferenceIdeal.defs _ _).mono (fun _ h c => (h c).2) (Cert.QLinear.RefRun.run m ρ)

/-- The ideal pass rewrote no operation. -/
theorem preserves : Cert.preserves_Kernel_KernelIdeal := trivial

/-- From memories that agree on the arguments, both programs end with the result at the specification's function of
    the arguments: the kernel's by its segments folded from the launch memory, the reference's by its stages read at
    an index, the arguments' entries real by the precondition. -/
theorem algebraic : Cert.algebraic_KernelIdeal_ReferenceIdeal := by
  intro m ρ m' ρ' hpre hagree
  refine ⟨_, (θ_run Cert.KernelIdeal.defs _ _).mono
    (fun r h c => ⟨(h c).1.trans (Cert.KernelIdeal.Named.result_eq m ρ c), (h c).2⟩)
    (Cert.KernelIdeal.Named.run_named m ρ), ?_⟩
  refine (θ_run Cert.ReferenceIdeal.defs _ _).mono (fun r h c => ⟨(h c).1.trans ?_, (h c).2⟩)
    (Cert.QLinear.RefRun.run m' ρ')
  rw [(hagree c).1, (hagree c).2.1, (hagree c).2.2]
  obtain ⟨f0, f1, f2⟩ := Cert.QLinear.finite_of_pre _ _ _ (hpre c)
  exact Cert.QLinear.Ref.result_eq_out _ _ _ f0 f1 f2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
